-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x640 : Shape := ⟨2, ![128, 640]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x640 : S_.BroadcastsInDim S128x640 (![] : Fin 0 → Fin S128x640.rank)
  reducesTo_S128x640_S_d0_1 : S128x640.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000 .f32) (main_arg2 : FVec F S128x640 .f32) (main_arg3 : FVec F S128 .f32) (main_arg4 : FVec F S128 .f32) (main_arg5 : FVec F S128 .f32) (main_arg6 : IVec S800000 32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x640 .f32 := Host.absf main_arg2
  let main_cst_2 : FVec F S_ .f32 := constant S_ .f32 0x7F800000#32
  let main_v10 : FVec F S128x640 .f32 := broadcastInDim S128x640 ![] bcast_S_S128x640 main_cst_2
  let main_v11 : IVec S128x640 1 := cmpf .olt main_v9 main_v10
  let main_c_3 : IVec S_ 1 := constantI S_ 1 1#1
  let main_v12 : IVec S_ 1 := (fun x v => Host.reduce IntOp.andi x v reducesTo_S128x640_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S800000 : Shape := ⟨1, ![800000]⟩
abbrev S128x640 : Shape := ⟨2, ![128, 640]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S4000x128 : Shape := ⟨2, ![4000, 128]⟩
abbrev S4000x1 : Shape := ⟨2, ![4000, 1]⟩
abbrev S640x128 : Shape := ⟨2, ![640, 128]⟩
abbrev S1x128 : Shape := ⟨2, ![1, 128]⟩
abbrev S2000x128 : Shape := ⟨2, ![2000, 128]⟩
abbrev S128x128 : Shape := ⟨2, ![128, 128]⟩
abbrev S2000 : Shape := ⟨1, ![2000]⟩
abbrev S2000x1 : Shape := ⟨2, ![2000, 1]⟩

abbrev nBuf : Space → Nat
  | .hbm => 40
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x640, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S640x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x1, .i32⟩
  | .local _ .vmem, ⟨5, _⟩ => ⟨S4000x1, .i32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S640x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S640x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S50000x128 : S_.BroadcastsInDim S50000x128 (![] : Fin 0 → Fin S50000x128.rank)
  transposes_S128x640_S640x128_1_0 : S128x640.Transposes [1, 0] S640x128
  shapeCasts_S128_S1x128 : S128.ShapeCasts S1x128
  inb_S640x128_S640x128_0_0 : ∀ a, (![0, 0] : Fin 2 → Nat) a + S640x128.size a ≤ S640x128.size a
  h_S640x128 : 0 < S640x128.numel
  shapeCasts_S640x128_S640x128 : S640x128.ShapeCasts S640x128
  slices_S640x128_o0_0_S128x128 : S640x128.Slices ![0, 0] S128x128
  bitsLt_bf16_f32 : FTy.bits .bf16 < FTy.bits .f32
  slices_S640x128_o128_0_S128x128 : S640x128.Slices ![128, 0] S128x128
  slices_S640x128_o256_0_S128x128 : S640x128.Slices ![256, 0] S128x128
  slices_S640x128_o384_0_S128x128 : S640x128.Slices ![384, 0] S128x128
  slices_S640x128_o512_0_S128x128 : S640x128.Slices ![512, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S800000x1.size a
  hwx0_1 : ∀ i : grid0.Coords, EltTy.bits .f32 = 32 ∨ (Rect.block (s := S800000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .i32 = 32 ∨ (Rect.block (s := S800000x1) S4000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S800000x128.size a
  hwx0_3 : ∀ i : grid0.Coords, EltTy.bits .f32 = 32 ∨ (Rect.block (s := S800000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S800000x128.size a
  hwx0_4 : ∀ i : grid0.Coords, EltTy.bits .f32 = 32 ∨ (Rect.block (s := S800000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S640x128.size a ≤ S640x128.size a
  hwx1_5 : ∀ i : grid1.Coords, EltTy.bits .f32 = 32 ∨ (Rect.block (s := S640x128) S640x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S640x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x640 : Shape := ⟨2, ![128, 640]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x640 : Shape := ⟨2, ![50000, 640]⟩
abbrev S640x128 : Shape := ⟨2, ![640, 128]⟩
abbrev S1x128 : Shape := ⟨2, ![1, 128]⟩
abbrev S50000 : Shape := ⟨1, ![50000]⟩
abbrev S50000x1 : Shape := ⟨2, ![50000, 1]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x640, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .f32⟩
  | .hbm, ⟨22, _⟩ => ⟨S_, .f32⟩
  | .hbm, ⟨23, _⟩ => ⟨S800000, .f32⟩
  | .hbm, ⟨24, _⟩ => ⟨S800000, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .f32⟩
  | .hbm, ⟨36, _⟩ => ⟨S_, .f32⟩
  | .hbm, ⟨37, _⟩ => ⟨S800000, .f32⟩
  | .hbm, ⟨38, _⟩ => ⟨S800000, .f32⟩
  | .hbm, ⟨39, _⟩ => ⟨S800000x1, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .f32⟩
  | .hbm, ⟨50, _⟩ => ⟨S_, .f32⟩
  | .hbm, ⟨51, _⟩ => ⟨S800000, .f32⟩
  | .hbm, ⟨52, _⟩ => ⟨S800000, .f32⟩
  | .hbm, ⟨53, _⟩ => ⟨S800000x1, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .f32⟩
  | .hbm, ⟨64, _⟩ => ⟨S_, .f32⟩
  | .hbm, ⟨65, _⟩ => ⟨S800000, .f32⟩
  | .hbm, ⟨66, _⟩ => ⟨S800000, .f32⟩
  | .hbm, ⟨67, _⟩ => ⟨S800000x1, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x640, .f32⟩
  | .hbm, ⟨75, _⟩ => ⟨S640x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x1, .f32⟩
  | .hbm, ⟨99, _⟩ => ⟨S50000x1, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S50000x128, .f32⟩
  | .hbm, ⟨111, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_11 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_cst_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call4_cst : Ref sig .tc := ⟨.hbm, 109, rfl⟩
abbrev main_call4_v0 : Ref sig .tc := ⟨.hbm, 110, rfl⟩
abbrev main_v73 : Ref sig .tc := ⟨.hbm, 111, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x128_S50000x128_S50000x128_S50000x640_d1 : Shape.Concatenates [S50000x128, S50000x128, S50000x128, S50000x128, S50000x128] S50000x640 1
  transposes_S128x640_S640x128_1_0 : S128x640.Transposes [1, 0] S640x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x640_S640x128_S50000x128_1_0_0_1_n_n_wf : DotDims.WF S50000x640 S640x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x640_S640x128_S50000x128_1_0_0_1_n_n : DotDims S50000x640 S640x128 S50000x128 where
  lhsContracting := [1]
  rhsContracting := [0]
  lhsNonContracting := [0]
  rhsNonContracting := [1]
  lhsBatch := []
  rhsBatch := []
  wf := dot_S50000x640_S640x128_S50000x128_1_0_0_1_n_n_wf

class Facts : Prop extends Facts₀ where

variable [Facts]
-- ==== Proof.KernelWeightRegion.lean ====
/-
  The first kernel region: edge rows weighted by direction.

  At each of the 200 grid points the body is handed a block of 4000 gathered rows (128 wide), the 4000 distances and
  the 4000 position words of those edges as columns, and leaves in each of its three output blocks the rows
  multiplied by the distance where the position word is 0, 1 or 2 respectively, and by zero elsewhere. Nothing else
  is touched: the body reads its three inputs whole, overwrites its three outputs whole, and uses no scratch.

  Stated here at any contents `V` of the core's buffers on entry: what the body leaves in each output block as a
  function of the input blocks, the body's run at one point, and the pipeline's record of what every staging buffer
  holds after the body at every point.
-/
import proofs.«122298_j3444563771449_1_alg».proof.Proof.Gen.Kernel.Launch
import proofs.«122298_j3444563771449_1_alg».proof.Proof.Gen.Kernel.Skeleton
import proofs.«122298_j3444563771449_1_alg».proof.Proof.Gen.Kernel.Points
import Idealize.ShloMosaic.Lib.Pipeline.FrameBody
import Idealize.ShloMosaic.Lib.Ring
import Idealize.ShloMosaic.Lib.Tactic

-- membership in a rectangle of 4000 or 2000 rows: the structural look recurses once per coordinate of the long axis
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows read -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds that window's block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

/-- The whole 4000 × 128 block, and the whole 4000 × 1 column. -/
abbrev rowsRect : Rect S4000x128 := Rect.unit (s := S4000x128) ![0, 0] S4000x128.size inb_S4000x128_S4000x128_0_0
abbrev colRect : Rect S4000x1 := Rect.unit (s := S4000x1) ![0, 0] S4000x1.size inb_S4000x1_S4000x1_0_0

/-- Output block for direction 0 after the body: the rows times the distance masked to position word 0. -/
def out0_3 (x0 : Vec F S4000x128 .f32) (x1 : Vec F S4000x1 .f32) (x2 : Vec F S4000x1 .i32) : Vec F S4000x128 .f32 :=
  View.canon [⟨rowsRect, k0_pay4 (View.ld x0 rowsRect) (View.ld x1 colRect) (View.ld x2 colRect)⟩]
/-- … for direction 1 … -/
def out0_4 (x0 : Vec F S4000x128 .f32) (x1 : Vec F S4000x1 .f32) (x2 : Vec F S4000x1 .i32) : Vec F S4000x128 .f32 :=
  View.canon [⟨rowsRect, k0_pay5 (View.ld x0 rowsRect) (View.ld x1 colRect) (View.ld x2 colRect)⟩]
/-- … and for direction 2. -/
def out0_5 (x0 : Vec F S4000x128 .f32) (x1 : Vec F S4000x1 .f32) (x2 : Vec F S4000x1 .i32) : Vec F S4000x128 .f32 :=
  View.canon [⟨rowsRect, k0_pay6 (View.ld x0 rowsRect) (View.ld x1 colRect) (View.ld x2 colRect)⟩]

/-- One store of the whole block covers the block. -/
theorem cover0 (p0 : Vec F S4000x128 .f32) (y : S4000x128.Idx) :
    ∃ pc ∈ ([⟨rowsRect, p0⟩] : List (View.Piece (Elt F) S4000x128 .f32)), y ∈ pc.1.set :=
  View.cover_of_tiled [⟨rowsRect, p0⟩] S4000x128.size (by rfl) y

/-! ## The body's run -/

set_option maxHeartbeats 1000000 in
/-- On whole staging buffers — the inputs at known contents, the outputs at anything — the body runs to its return
    with the inputs as they were and each output holding `out0_W` of the inputs. -/
theorem sound_kernel0 (c : Dev nD) (E : Set ℕ) (i : grid0.Coords)
    (arg1 : Memref sig .tc .vmem S4000x128 .f32) (harg1 : arg1.IsWhole) (arg2 : Memref sig .tc .vmem S4000x1 .f32) (harg2 : arg2.IsWhole)
    (arg3 : Memref sig .tc .vmem S4000x1 .i32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 : Vec F S4000x128 .f32) (x1 : Vec F S4000x1 .f32) (x2 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__weight_kernel i arg1 harg1 arg2 harg2 arg3 harg3 arg4 harg4 arg5 harg5 arg6 harg6) K := by
  simp only [cc0__weight_kernel_eq_skeleton]; unfold cc0__weight_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0 _)
  isplitl [H4]
  · iexists _; isplitr
    swap; · iexact H4
    ipureintro
    try dsimp only
    exact View.read_writes_eq_canon _ _ _ (cover0 _)
  iexists _; isplitr
  swap; · iexact H5
  ipureintro
  try dsimp only
  exact View.read_writes_eq_canon _ _ _ (cover0 _)

/-! ## The pipeline's record -/

/-- What the pipeline is told of this region on core `c`: the arrays as found; after the body at point `t` each input's
    buffer still at its block and each output's at `out0_W` of the input blocks; the invariant only the untouched
    scratch and the generator register; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regs

end
-- ==== Proof.KernelFusedRegion.lean ====
/-
  The second kernel region: the affine map, the row normalisation and the clip.

  At each of the 25 grid points the body is handed 2000 rows of each of five 128-wide pieces — the nodes' features and
  four aggregations, the second and the fifth of which are blocks of ONE array —, the whole 640 × 128 transposed weight
  matrix and the bias, scale and shift rows, and leaves in its output block the 2000 normalised, scaled, shifted and
  clipped rows. It reads its nine inputs whole, overwrites its output whole, and uses no scratch.

  The array read through two windows is held half by each: neither window writes it, so two readers may share it.
-/
import proofs.«122298_j3444563771449_1_alg».proof.Proof.Gen.Kernel.Launch
import proofs.«122298_j3444563771449_1_alg».proof.Proof.Gen.Kernel.Skeleton
import proofs.«122298_j3444563771449_1_alg».proof.Proof.Gen.Kernel.Points
import Idealize.ShloMosaic.Lib.Pipeline.FrameBody
import Idealize.ShloMosaic.Lib.Ring
import Idealize.ShloMosaic.Lib.Tactic

-- membership in a rectangle of 4000 or 2000 rows: the structural look recurses once per coordinate of the long axis
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows read -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds that window's block at every point, whether the point fetched it or not (the
    weight matrix and the three rows are fetched once: their block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

abbrev blockRect : Rect S2000x128 := Rect.unit (s := S2000x128) ![0, 0] S2000x128.size inb_S2000x128_S2000x128_0_0
abbrev weightRect : Rect S640x128 := Rect.unit (s := S640x128) ![0, 0] S640x128.size inb_S640x128_S640x128_0_0
abbrev rowRect : Rect S1x128 := Rect.unit (s := S1x128) ![0, 0] S1x128.size inb_S1x128_S1x128_0_0

/-- The output block after the body: the normalised rows of the affine map of the five pieces. -/
def out1_9 (x0 : Vec F S2000x128 .f32) (x1 : Vec F S2000x128 .f32) (x2 : Vec F S2000x128 .f32) (x3 : Vec F S2000x128 .f32) (x4 : Vec F S2000x128 .f32) (x5 : Vec F S640x128 .f32) (x6 : Vec F S1x128 .f32) (x7 : Vec F S1x128 .f32) (x8 : Vec F S1x128 .f32) : Vec F S2000x128 .f32 :=
  View.canon [⟨blockRect, k1_pay1 (k1_pay2 (View.ld x5 weightRect) (View.ld x0 blockRect) (View.ld x1 blockRect) (View.ld x2 blockRect) (View.ld x3 blockRect) (View.ld x4 blockRect) (View.ld x6 rowRect))
    (View.ld x7 rowRect) (View.ld x8 rowRect)⟩]

/-- One store of the whole block covers the block. -/
theorem cover1 (p0 : Vec F S2000x128 .f32) (y : S2000x128.Idx) :
    ∃ pc ∈ ([⟨blockRect, p0⟩] : List (View.Piece (Elt F) S2000x128 .f32)), y ∈ pc.1.set :=
  View.cover_of_tiled [⟨blockRect, p0⟩] S2000x128.size (by rfl) y

/-! ## The body's run -/

set_option maxHeartbeats 2000000 in
/-- On whole staging buffers — the inputs at known contents, the output at anything — the body runs to its return
    with the inputs as they were and the output holding `out1_9` of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S640x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x128 .f32) (x4 : Vec F S2000x128 .f32) (x5 : Vec F S640x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1 _)

/-! ## The pipeline's record -/

/-- What the pipeline is told of this region on core `c`: the arrays as found; after the body at point `t` each input's
    buffer still at its block and the output's at `out1_9` of the input blocks; the invariant only the untouched scratch
    and the generator register; nothing owed; every array held whole but the one behind windows 1 and 4, held half by
    each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the run above applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regs

end
-- ==== Proof.KernelRun.lean ====
/-
  The whole run of the program: a stretch of host operations (the gather of the source rows, the reshapes of the
  distances and positions), the first kernel region, a second stretch (the three scatter-adds into zeros, the
  transpose of the weight matrix, the reshapes of the bias, scale and shift), and the second kernel region.

  The contents of the core's buffers at each of the five boundaries are written as a fold from the launch memory: a
  host stretch applies its operations; a region leaves each of its output arrays at what its write-backs put there and
  every other buffer as it found it. Each region is then a segment between two such boundaries: its arrays are taken
  out of the buffers the core holds, handed to the pipeline, and put back at their final contents. In the second
  region ONE array stands behind two input windows; the core's whole hold on it is split into two halves on entry,
  one per window, and joined again on exit — both windows only read it, so both halves come back at the contents that
  went in.

  The conclusion: every weakly fair execution terminates, faults nowhere, and leaves every buffer the core holds
  outside the kernels' scratch at the last boundary's contents — in particular each argument as launched and the result
  at what the second region wrote.
-/
import proofs.«122298_j3444563771449_1_alg».proof.Proof.KernelWeightRegion
import proofs.«122298_j3444563771449_1_alg».proof.Proof.KernelFusedRegion
import proofs.«122298_j3444563771449_1_alg».proof.Proof.Gen.Kernel.Regions
import Idealize.ShloMosaic.Lib.Pipeline.RegionsLoop
import Idealize.ShloMosaic.Lib.Pipeline.FrameSuffix

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the first region finds. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first region: its arrays at what the pipeline leaves, every other buffer as found. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: what the second region finds. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the second region: the result array at what the pipeline leaves, every other buffer as found. -/
def W4 (c : Dev nD) : Valuation τ sig (Elt F) :=
  Function.update (W3 m ρ c) (Proc.devRef .tc main_v23) ((dat1 (U3 m ρ) c).arrAt 9 cfg1.N)
theorem W4_result (c : Dev nD) : W4 m ρ c (Proc.devRef .tc main_v23) = (dat1 (U3 m ρ) c).arrAt 9 cfg1.N := by
  unfold W4; exact Function.update_self _ _ _
theorem W4_of_ne (c : Dev nD) (b : Ref sig .tc) (hb : b ≠ main_v23) :
    W4 m ρ c (Proc.devRef .tc b) = W3 m ρ c (Proc.devRef .tc b) := by
  unfold W4; exact Function.update_of_ne (StableHlo.devRef_ne_of_ne hb) _ _
abbrev U4 : (c : Dev nD) → (b : Ref sig .tc) → Buf (Elt F) ((c : Thread nD τ).loc b) := fun c b => W4 m ρ c b

/-! ## No segment writes an argument -/

theorem hostOps0_keeps (c : Dev nD) (W : Valuation τ sig (Elt F)) (b : Ref sig .tc)
    (hb : b ∉ ([main_c, main_v0, main_v1, main_c_0, main_v2, main_v3, main_v4, main_v5, main_v6, main_v7, main_v8] : List (Ref sig .tc))) :
    StableHlo.after (hostOps0 (F := F)) W (Proc.devRef .tc b) = W (Proc.devRef .tc b) :=
  StableHlo.after_of_writes_sub hostOps0 _ hostOps0_writes hb
theorem hostOps1_keeps (c : Dev nD) (W : Valuation τ sig (Elt F)) (b : Ref sig .tc)
    (hb : b ∉ ([main_cst, main_v10, main_v11, main_v12, main_cst_1, main_v13, main_v14, main_v15, main_cst_2, main_v16, main_v17, main_v18, main_v19, main_v20, main_v21, main_v22] : List (Ref sig .tc))) :
    StableHlo.after (hostOps1 (F := F)) W (Proc.devRef .tc b) = W (Proc.devRef .tc b) :=
  StableHlo.after_of_writes_sub hostOps1 _ hostOps1_writes hb

/-- An argument array is a window of neither region's outputs and no host operation's result: it ends as launched. -/
theorem W4_arg (c : Dev nD) (b : Ref sig .tc) (h4 : b ≠ main_v23)
    (h3 : b ∉ ([main_cst, main_v10, main_v11, main_v12, main_cst_1, main_v13, main_v14, main_v15, main_cst_2, main_v16, main_v17, main_v18, main_v19, main_v20, main_v21, main_v22] : List (Ref sig .tc)))
    (h2 : ∀ w, Pipeline.arrRef spec0 w ≠ b)
    (h1 : b ∉ ([main_c, main_v0, main_v1, main_c_0, main_v2, main_v3, main_v4, main_v5, main_v6, main_v7, main_v8] : List (Ref sig .tc))) :
    W4 m ρ c (Proc.devRef .tc b) = m ((c : Thread nD τ).loc b) :=
  (W4_of_ne m ρ c b h4).trans <| (hostOps1_keeps c _ b h3).trans <| (W2_of_ne m ρ c b h2).trans <| (hostOps0_keeps c _ b h1).trans rfl

/-! ## The pipelines' records and what rides beside the buffers -/

/-- No pipeline has a prefetched table. -/
abbrev adm : (p : Fin 2) → (pcfgs (F := F) p).Adm := fun p => (cfgs p).toPCfg_adm
/-- Each pipeline's record at the contents its region is entered from. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the buffers the core holds. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without what is owed. -/
abbrev Tₙ (c : Dev nD) : sProp 𝕄 := iprop(StableHlo.held (c : Thread nD τ) (Pipeline.ucRefs τ sig) (W4 m ρ c) ∗ ∃ r, prngReg c r)

/-! ## The second region's arrays: nine buffers behind ten windows -/

/-- The distinct buffers behind the second region's windows, one by one. -/
theorem arrBufs1_chain (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v12) ↦{fullShare} V main_v12)
          ∗ (((c : Thread nD τ).loc main_v15) ↦{fullShare} V main_v15) ∗ (((c : Thread nD τ).loc main_v18) ↦{fullShare} V main_v18)
          ∗ (((c : Thread nD τ).loc main_v19) ↦{fullShare} V main_v19) ∗ (((c : Thread nD τ).loc main_v20) ↦{fullShare} V main_v20)
          ∗ (((c : Thread nD τ).loc main_v21) ↦{fullShare} V main_v21) ∗ (((c : Thread nD τ).loc main_v22) ↦{fullShare} V main_v22)
          ∗ (((c : Thread nD τ).loc main_v23) ↦{fullShare} V main_v23)) := by
  unfold Pipeline.arrBufs
  exact bigSep_eq_bigSepL_of_eq [main_arg0, main_v12, main_v15, main_v18, main_v19, main_v20, main_v21, main_v22, main_v23] (by decide) (by decide) _

/-! ## The regions as segments -/

set_option backward.isDefEq.respectTransparency.types false in
/-- The first region between the boundaries `W1` and `W2`: its six arrays, all distinct, are taken out of the buffers
    the core holds and put back at their final contents; the generator register rides through the invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each window's share of its array in the second region: half and half for the two windows on one array. -/
theorem share1_0 (c : Dev nD) (V₀) : (dat1 (F := F) V₀ c).share 0 = fullShare := rfl
theorem share1_1 (c : Dev nD) (V₀) : (dat1 (F := F) V₀ c).share 1 = fullShare.left := rfl
theorem share1_2 (c : Dev nD) (V₀) : (dat1 (F := F) V₀ c).share 2 = fullShare := rfl
theorem share1_3 (c : Dev nD) (V₀) : (dat1 (F := F) V₀ c).share 3 = fullShare := rfl
theorem share1_4 (c : Dev nD) (V₀) : (dat1 (F := F) V₀ c).share 4 = fullShare.right := rfl
theorem share1_5 (c : Dev nD) (V₀) : (dat1 (F := F) V₀ c).share 5 = fullShare := rfl
theorem share1_6 (c : Dev nD) (V₀) : (dat1 (F := F) V₀ c).share 6 = fullShare := rfl
theorem share1_7 (c : Dev nD) (V₀) : (dat1 (F := F) V₀ c).share 7 = fullShare := rfl
theorem share1_8 (c : Dev nD) (V₀) : (dat1 (F := F) V₀ c).share 8 = fullShare := rfl
theorem share1_9 (c : Dev nD) (V₀) : (dat1 (F := F) V₀ c).share 9 = fullShare := rfl

/-- The ten windows' arrays: each a whole buffer, at the window's share. -/
theorem arrays1_eq (c : Dev nD) (V₀ : (c : Dev nD) → (b : Ref sig .tc) → Buf (Elt F) ((c : Thread nD τ).loc b))
    (G : (w : Fin cfg1.W) → Buf (Elt F) ((cfg1.win w).arr.view.loc (c : Thread nD τ))) :
    ((dat1 V₀ c).arrays G : sProp 𝕄)
      = bigSep Finset.univ fun w : Fin cfg1.W => ((((c : Thread nD τ).loc (Pipeline.arrRef spec1 w)) ↦{(dat1 V₀ c).share w} G w) : sProp 𝕄) := by
  unfold Dat.arrays
  exact bigSep_congr fun w _ => by rw [(arr_whole1 w).set_eq_univ]

/-- Equal assertions entail one another. -/
theorem ofEq {P Q : sProp 𝕄} (h : P = Q) : P ⊢ Q := by rw [h]

/-- ENTRY: the nine buffers held whole at `V` are the ten windows' arrays at `V`'s contents, the buffer behind
    windows 1 and 4 halved between them. -/
theorem arrays1_of_bufs (c : Dev nD) (V₀ : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ (dat1 V₀ c).arrays G := by
  rw [arrBufs1_chain, arrays1_eq, bigSep_W1]
  have e0 : ((((c : Thread nD τ).loc (Pipeline.arrRef spec1 0)) ↦{(dat1 V₀ c).share 0} G 0) : sProp 𝕄)
      = (((c : Thread nD τ).loc main_arg0) ↦{fullShare} V main_arg0) := by rw [hG 0]; rfl
  have e1 : ((((c : Thread nD τ).loc (Pipeline.arrRef spec1 1)) ↦{(dat1 V₀ c).share 1} G 1) : sProp 𝕄)
      = (((c : Thread nD τ).loc main_v12) ↦{fullShare.left} V main_v12) := by rw [hG 1]; rfl
  have e2 : ((((c : Thread nD τ).loc (Pipeline.arrRef spec1 2)) ↦{(dat1 V₀ c).share 2} G 2) : sProp 𝕄)
      = (((c : Thread nD τ).loc main_v15) ↦{fullShare} V main_v15) := by rw [hG 2]; rfl
  have e3 : ((((c : Thread nD τ).loc (Pipeline.arrRef spec1 3)) ↦{(dat1 V₀ c).share 3} G 3) : sProp 𝕄)
      = (((c : Thread nD τ).loc main_v18) ↦{fullShare} V main_v18) := by rw [hG 3]; rfl
  have e4 : ((((c : Thread nD τ).loc (Pipeline.arrRef spec1 4)) ↦{(dat1 V₀ c).share 4} G 4) : sProp 𝕄)
      = (((c : Thread nD τ).loc main_v12) ↦{fullShare.right} V main_v12) := by rw [hG 4]; rfl
  have e5 : ((((c : Thread nD τ).loc (Pipeline.arrRef spec1 5)) ↦{(dat1 V₀ c).share 5} G 5) : sProp 𝕄)
      = (((c : Thread nD τ).loc main_v19) ↦{fullShare} V main_v19) := by rw [hG 5]; rfl
  have e6 : ((((c : Thread nD τ).loc (Pipeline.arrRef spec1 6)) ↦{(dat1 V₀ c).share 6} G 6) : sProp 𝕄)
      = (((c : Thread nD τ).loc main_v20) ↦{fullShare} V main_v20) := by rw [hG 6]; rfl
  have e7 : ((((c : Thread nD τ).loc (Pipeline.arrRef spec1 7)) ↦{(dat1 V₀ c).share 7} G 7) : sProp 𝕄)
      = (((c : Thread nD τ).loc main_v21) ↦{fullShare} V main_v21) := by rw [hG 7]; rfl
  have e8 : ((((c : Thread nD τ).loc (Pipeline.arrRef spec1 8)) ↦{(dat1 V₀ c).share 8} G 8) : sProp 𝕄)
      = (((c : Thread nD τ).loc main_v22) ↦{fullShare} V main_v22) := by rw [hG 8]; rfl
  have e9 : ((((c : Thread nD τ).loc (Pipeline.arrRef spec1 9)) ↦{(dat1 V₀ c).share 9} G 9) : sProp 𝕄)
      = (((c : Thread nD τ).loc main_v23) ↦{fullShare} V main_v23) := by rw [hG 9]; rfl
  iintro ⟨H0, H12, H15, H18, H19, H20, H21, H22, H23⟩
  ihave Hs := (pointsTo_share (PosShare.mem_left_op_right fullShare)).1 $$ H12
  icases Hs with ⟨Hl, Hr⟩
  isplitl [H0]; · iapply (ofEq e0.symm); iexact H0
  isplitl [Hl]; · iapply (ofEq e1.symm); iexact Hl
  isplitl [H15]; · iapply (ofEq e2.symm); iexact H15
  isplitl [H18]; · iapply (ofEq e3.symm); iexact H18
  isplitl [Hr]; · iapply (ofEq e4.symm); iexact Hr
  isplitl [H19]; · iapply (ofEq e5.symm); iexact H19
  isplitl [H20]; · iapply (ofEq e6.symm); iexact H20
  isplitl [H21]; · iapply (ofEq e7.symm); iexact H21
  isplitl [H22]; · iapply (ofEq e8.symm); iexact H22
  iapply (ofEq e9.symm); iexact H23

/-- EXIT: the ten windows' arrays at `V`'s contents are the nine buffers held whole at `V`: the two halves join. -/
theorem bufs_of_arrays1 (c : Dev nD) (V₀ : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    ((dat1 V₀ c).arrays G : sProp 𝕄) ⊢ Pipeline.arrBufs (Ix := Unit) (Name := ℕ) (U := UR sig nD τ) (Lvl := ℕ) spec1 c V := by
  rw [arrBufs1_chain, arrays1_eq, bigSep_W1]
  have e0 : ((((c : Thread nD τ).loc (Pipeline.arrRef spec1 0)) ↦{(dat1 V₀ c).share 0} G 0) : sProp 𝕄)
      = (((c : Thread nD τ).loc main_arg0) ↦{fullShare} V main_arg0) := by rw [hG 0]; rfl
  have e1 : ((((c : Thread nD τ).loc (Pipeline.arrRef spec1 1)) ↦{(dat1 V₀ c).share 1} G 1) : sProp 𝕄)
      = (((c : Thread nD τ).loc main_v12) ↦{fullShare.left} V main_v12) := by rw [hG 1]; rfl
  have e2 : ((((c : Thread nD τ).loc (Pipeline.arrRef spec1 2)) ↦{(dat1 V₀ c).share 2} G 2) : sProp 𝕄)
      = (((c : Thread nD τ).loc main_v15) ↦{fullShare} V main_v15) := by rw [hG 2]; rfl
  have e3 : ((((c : Thread nD τ).loc (Pipeline.arrRef spec1 3)) ↦{(dat1 V₀ c).share 3} G 3) : sProp 𝕄)
      = (((c : Thread nD τ).loc main_v18) ↦{fullShare} V main_v18) := by rw [hG 3]; rfl
  have e4 : ((((c : Thread nD τ).loc (Pipeline.arrRef spec1 4)) ↦{(dat1 V₀ c).share 4} G 4) : sProp 𝕄)
      = (((c : Thread nD τ).loc main_v12) ↦{fullShare.right} V main_v12) := by rw [hG 4]; rfl
  have e5 : ((((c : Thread nD τ).loc (Pipeline.arrRef spec1 5)) ↦{(dat1 V₀ c).share 5} G 5) : sProp 𝕄)
      = (((c : Thread nD τ).loc main_v19) ↦{fullShare} V main_v19) := by rw [hG 5]; rfl
  have e6 : ((((c : Thread nD τ).loc (Pipeline.arrRef spec1 6)) ↦{(dat1 V₀ c).share 6} G 6) : sProp 𝕄)
      = (((c : Thread nD τ).loc main_v20) ↦{fullShare} V main_v20) := by rw [hG 6]; rfl
  have e7 : ((((c : Thread nD τ).loc (Pipeline.arrRef spec1 7)) ↦{(dat1 V₀ c).share 7} G 7) : sProp 𝕄)
      = (((c : Thread nD τ).loc main_v21) ↦{fullShare} V main_v21) := by rw [hG 7]; rfl
  have e8 : ((((c : Thread nD τ).loc (Pipeline.arrRef spec1 8)) ↦{(dat1 V₀ c).share 8} G 8) : sProp 𝕄)
      = (((c : Thread nD τ).loc main_v22) ↦{fullShare} V main_v22) := by rw [hG 8]; rfl
  have e9 : ((((c : Thread nD τ).loc (Pipeline.arrRef spec1 9)) ↦{(dat1 V₀ c).share 9} G 9) : sProp 𝕄)
      = (((c : Thread nD τ).loc main_v23) ↦{fullShare} V main_v23) := by rw [hG 9]; rfl
  iintro ⟨H0, Hl, H15, H18, Hr, H19, H20, H21, H22, H23⟩
  isplitl [H0]; · iapply (ofEq e0); iexact H0
  isplitl [Hl Hr]
  · iapply (pointsTo_share (PosShare.mem_left_op_right fullShare)).2
    isplitl [Hl]; · iapply (ofEq e1); iexact Hl
    iapply (ofEq e4); iexact Hr
  isplitl [H15]; · iapply (ofEq e2); iexact H15
  isplitl [H18]; · iapply (ofEq e3); iexact H18
  isplitl [H19]; · iapply (ofEq e5); iexact H19
  isplitl [H20]; · iapply (ofEq e6); iexact H20
  isplitl [H21]; · iapply (ofEq e7); iexact H21
  isplitl [H22]; · iapply (ofEq e8); iexact H22
  iapply (ofEq e9); iexact H23

/-- The second region's arrays when it is entered are the contents found. -/
theorem hG3 (c : Dev nD) (w : Fin cfg1.W) : (dat1 (U3 m ρ) c).arrAt w 0 = U3 m ρ c (Pipeline.arrRef spec1 w) := by
  show (dat1 (U3 m ρ) c).A w = _; exact A_eq1 (U3 m ρ) c w

/-- An input window's array is never written: at every point it is the contents found. -/
theorem arrAt1_in (c : Dev nD) (w : Fin cfg1.W) (hw : (cfg1.win w).isOut = false) (n : ℕ) :
    (dat1 (U3 m ρ) c).arrAt w n = U3 m ρ c (Pipeline.arrRef spec1 w) :=
  ((dat1 (U3 m ρ) c).arrAt_in w hw n).trans (A_eq1 (U3 m ρ) c w)
/-- Every window of the second region but the last is an input, and its array is not the result. -/
theorem isIn1 : ∀ w : Fin cfg1.W, w ≠ 9 → (cfg1.win w).isOut = false := by decide
theorem arr_ne1 : ∀ w : Fin cfg1.W, w ≠ 9 → Pipeline.arrRef spec1 w ≠ main_v23 := by decide

/-- … and when it is left: an input's as found, the result's at what the pipeline wrote. -/
theorem hG4 (c : Dev nD) (w : Fin cfg1.W) : (dat1 (U3 m ρ) c).arrAt w cfg1.N = U4 m ρ c (Pipeline.arrRef spec1 w) := by
  by_cases h : w = 9
  · subst h
    show _ = W4 m ρ c (Proc.devRef .tc main_v23)
    exact (W4_result m ρ c).symm
  · exact (arrAt1_in m ρ c w (isIn1 w h) _).trans (W4_of_ne m ρ c _ (arr_ne1 w h)).symm

/-- The buffers that are no window's array of the second region are not the result: they leave as they entered. -/
theorem rest1_eq (c : Dev nD) :
    (Pipeline.unscopedRest (Ix := Unit) (Name := ℕ) (U := UR sig nD τ) (Lvl := ℕ) spec1 c (U3 m ρ c) : sProp 𝕄)
      = Pipeline.unscopedRest spec1 c (U4 m ρ c) := by
  unfold Pipeline.unscopedRest
  refine bigSep_congr fun b hb => ?_
  have hne : b ≠ main_v23 := fun e => (Finset.mem_sdiff.mp hb).2 (Finset.mem_image.mpr ⟨9, Finset.mem_univ _, e.symm⟩)
  rw [show U4 m ρ c b = U3 m ρ c b from W4_of_ne m ρ c b hne]

/-- ENTRY of the second region: the buffers the core holds at the contents found are the ten windows' arrays at those
    contents and the buffers that are no window's array. -/
theorem bufs1_split (c : Dev nD) :
    (StableHlo.held (c : Thread nD τ) (Pipeline.ucRefs τ sig) (W3 m ρ c) : sProp 𝕄)
      ⊢ iprop((dat1 (U3 m ρ) c).arrays ((dat1 (U3 m ρ) c).arrAt · 0)
          ∗ Pipeline.unscopedRest (Ix := Unit) (Name := ℕ) (U := UR sig nD τ) (Lvl := ℕ) spec1 c (U3 m ρ c)) := by
  have hs : (StableHlo.held (c : Thread nD τ) (Pipeline.ucRefs τ sig) (W3 m ρ c) : sProp 𝕄)
      = iprop((Pipeline.arrBufs (Ix := Unit) (Name := ℕ) (U := UR sig nD τ) (Lvl := ℕ) spec1 c (U3 m ρ c) : sProp 𝕄)
          ∗ Pipeline.unscopedRest (Ix := Unit) (Name := ℕ) (U := UR sig nD τ) (Lvl := ℕ) spec1 c (U3 m ρ c)) := by
    rw [← Pipeline.unscopedBufs_held]
    exact Pipeline.unscopedBufs_split₀ (Ix := Unit) (Name := ℕ) (U := UR sig nD τ) (Lvl := ℕ) (cfgs) 1 winFacts₀1.arr_unscoped c (U3 m ρ c)
  have ha := arrays1_of_bufs c (U3 m ρ) (U3 m ρ c) ((dat1 (U3 m ρ) c).arrAt · 0) (hG3 m ρ c)
  rw [hs]
  iintro ⟨Hb, Hr⟩
  isplitl [Hb]
  · iapply ha; iexact Hb
  iexact Hr

/-- EXIT: the ten arrays at their final contents and the other buffers as found are the buffers the core holds at the
    last boundary's contents. -/
theorem bufs1_join (c : Dev nD) :
    iprop((dat1 (U3 m ρ) c).arrays ((dat1 (U3 m ρ) c).arrAt · cfg1.N)
        ∗ Pipeline.unscopedRest (Ix := Unit) (Name := ℕ) (U := UR sig nD τ) (Lvl := ℕ) spec1 c (U3 m ρ c))
      ⊢ (StableHlo.held (c : Thread nD τ) (Pipeline.ucRefs τ sig) (W4 m ρ c) : sProp 𝕄) := by
  have hs : (StableHlo.held (c : Thread nD τ) (Pipeline.ucRefs τ sig) (W4 m ρ c) : sProp 𝕄)
      = iprop((Pipeline.arrBufs (Ix := Unit) (Name := ℕ) (U := UR sig nD τ) (Lvl := ℕ) spec1 c (U4 m ρ c) : sProp 𝕄)
          ∗ Pipeline.unscopedRest (Ix := Unit) (Name := ℕ) (U := UR sig nD τ) (Lvl := ℕ) spec1 c (U4 m ρ c)) := by
    rw [← Pipeline.unscopedBufs_held]
    exact Pipeline.unscopedBufs_split₀ (Ix := Unit) (Name := ℕ) (U := UR sig nD τ) (Lvl := ℕ) (cfgs) 1 winFacts₀1.arr_unscoped c (U4 m ρ c)
  have ha := bufs_of_arrays1 c (U3 m ρ) (U4 m ρ c) ((dat1 (U3 m ρ) c).arrAt · cfg1.N) (hG4 m ρ c)
  rw [hs, ← rest1_eq]
  iintro ⟨Ha, Hr⟩
  isplitl [Ha]
  · iapply ha; iexact Ha
  iexact Hr

set_option backward.isDefEq.respectTransparency.types false in
/-- The second region between the boundaries `W3` and `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsp := bufs1_split m ρ c
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hj := bufs1_join m ρ c
    iintro ⟨Ha, HO, HY, Hrest⟩
    imodintro
    isplitl [Ha Hrest HY]
    · isplitl [Ha Hrest]
      · iapply hj
        isplitl [Ha]; · iexact Ha
        iexact Hrest
      iexact HY
    unfold Pipeline.Dat.owesAt Pipeline.owesWithin
    icases HO with ⟨%W, -, HO⟩; iexists W; iexact HO

/-! ## The run -/

/-- The four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution from memory `m` with zero counters terminates, faults nowhere, and ends with every
    buffer the core holds outside the kernels' scratch at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Regs

end
-- ==== Proof.KernelIdealWeightRegion.lean ====
/-
  The first kernel region: edge rows weighted by direction.

  At each of the 200 grid points the body is handed a block of 4000 gathered rows (128 wide), the 4000 distances and
  the 4000 position words of those edges as columns, and leaves in each of its three output blocks the rows
  multiplied by the distance where the position word is 0, 1 or 2 respectively, and by zero elsewhere. Nothing else
  is touched: the body reads its three inputs whole, overwrites its three outputs whole, and uses no scratch.

  Stated here at any contents `V` of the core's buffers on entry: what the body leaves in each output block as a
  function of the input blocks, the body's run at one point, and the pipeline's record of what every staging buffer
  holds after the body at every point.
-/
import proofs.«122298_j3444563771449_1_alg».proof.Proof.Gen.KernelIdeal.Launch
import proofs.«122298_j3444563771449_1_alg».proof.Proof.Gen.KernelIdeal.Skeleton
import proofs.«122298_j3444563771449_1_alg».proof.Proof.Gen.KernelIdeal.Points
import Idealize.ShloMosaic.Lib.Pipeline.FrameBody
import Idealize.ShloMosaic.Lib.Ring
import Idealize.ShloMosaic.Lib.Tactic

-- membership in a rectangle of 4000 or 2000 rows: the structural look recurses once per coordinate of the long axis
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows read -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds that window's block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

/-- The whole 4000 × 128 block, and the whole 4000 × 1 column. -/
abbrev rowsRect : Rect S4000x128 := Rect.unit (s := S4000x128) ![0, 0] S4000x128.size inb_S4000x128_S4000x128_0_0
abbrev colRect : Rect S4000x1 := Rect.unit (s := S4000x1) ![0, 0] S4000x1.size inb_S4000x1_S4000x1_0_0

/-- Output block for direction 0 after the body: the rows times the distance masked to position word 0. -/
def out0_3 (x0 : Vec F S4000x128 .f32) (x1 : Vec F S4000x1 .f32) (x2 : Vec F S4000x1 .i32) : Vec F S4000x128 .f32 :=
  View.canon [⟨rowsRect, k0_pay4 (View.ld x0 rowsRect) (View.ld x1 colRect) (View.ld x2 colRect)⟩]
/-- … for direction 1 … -/
def out0_4 (x0 : Vec F S4000x128 .f32) (x1 : Vec F S4000x1 .f32) (x2 : Vec F S4000x1 .i32) : Vec F S4000x128 .f32 :=
  View.canon [⟨rowsRect, k0_pay5 (View.ld x0 rowsRect) (View.ld x1 colRect) (View.ld x2 colRect)⟩]
/-- … and for direction 2. -/
def out0_5 (x0 : Vec F S4000x128 .f32) (x1 : Vec F S4000x1 .f32) (x2 : Vec F S4000x1 .i32) : Vec F S4000x128 .f32 :=
  View.canon [⟨rowsRect, k0_pay6 (View.ld x0 rowsRect) (View.ld x1 colRect) (View.ld x2 colRect)⟩]

/-- One store of the whole block covers the block. -/
theorem cover0 (p0 : Vec F S4000x128 .f32) (y : S4000x128.Idx) :
    ∃ pc ∈ ([⟨rowsRect, p0⟩] : List (View.Piece (Elt F) S4000x128 .f32)), y ∈ pc.1.set :=
  View.cover_of_tiled [⟨rowsRect, p0⟩] S4000x128.size (by rfl) y

/-! ## The body's run -/

set_option maxHeartbeats 1000000 in
/-- On whole staging buffers — the inputs at known contents, the outputs at anything — the body runs to its return
    with the inputs as they were and each output holding `out0_W` of the inputs. -/
theorem sound_kernel0 (c : Dev nD) (E : Set ℕ) (i : grid0.Coords)
    (arg1 : Memref sig .tc .vmem S4000x128 .f32) (harg1 : arg1.IsWhole) (arg2 : Memref sig .tc .vmem S4000x1 .f32) (harg2 : arg2.IsWhole)
    (arg3 : Memref sig .tc .vmem S4000x1 .i32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 : Vec F S4000x128 .f32) (x1 : Vec F S4000x1 .f32) (x2 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__weight_kernel i arg1 harg1 arg2 harg2 arg3 harg3 arg4 harg4 arg5 harg5 arg6 harg6) K := by
  simp only [cc0__weight_kernel_eq_skeleton]; unfold cc0__weight_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0 _)
  isplitl [H4]
  · iexists _; isplitr
    swap; · iexact H4
    ipureintro
    try dsimp only
    exact View.read_writes_eq_canon _ _ _ (cover0 _)
  iexists _; isplitr
  swap; · iexact H5
  ipureintro
  try dsimp only
  exact View.read_writes_eq_canon _ _ _ (cover0 _)

/-! ## The pipeline's record -/

/-- What the pipeline is told of this region on core `c`: the arrays as found; after the body at point `t` each input's
    buffer still at its block and each output's at `out0_W` of the input blocks; the invariant only the untouched
    scratch and the generator register; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regs

end
-- ==== Proof.KernelIdealFusedRegion.lean ====
/-
  The second kernel region: the affine map, the row normalisation and the clip.

  At each of the 25 grid points the body is handed 2000 rows of each of five 128-wide pieces — the nodes' features and
  four aggregations, the second and the fifth of which are blocks of ONE array —, the whole 640 × 128 transposed weight
  matrix and the bias, scale and shift rows, and leaves in its output block the 2000 normalised, scaled, shifted and
  clipped rows. It reads its nine inputs whole, overwrites its output whole, and uses no scratch.

  The array read through two windows is held half by each: neither window writes it, so two readers may share it.
-/
import proofs.«122298_j3444563771449_1_alg».proof.Proof.Gen.KernelIdeal.Launch
import proofs.«122298_j3444563771449_1_alg».proof.Proof.Gen.KernelIdeal.Skeleton
import proofs.«122298_j3444563771449_1_alg».proof.Proof.Gen.KernelIdeal.Points
import Idealize.ShloMosaic.Lib.Pipeline.FrameBody
import Idealize.ShloMosaic.Lib.Ring
import Idealize.ShloMosaic.Lib.Tactic

-- membership in a rectangle of 4000 or 2000 rows: the structural look recurses once per coordinate of the long axis
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows read -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds that window's block at every point, whether the point fetched it or not (the
    weight matrix and the three rows are fetched once: their block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

abbrev blockRect : Rect S2000x128 := Rect.unit (s := S2000x128) ![0, 0] S2000x128.size inb_S2000x128_S2000x128_0_0
abbrev weightRect : Rect S640x128 := Rect.unit (s := S640x128) ![0, 0] S640x128.size inb_S640x128_S640x128_0_0
abbrev rowRect : Rect S1x128 := Rect.unit (s := S1x128) ![0, 0] S1x128.size inb_S1x128_S1x128_0_0

/-- The output block after the body: the normalised rows of the affine map of the five pieces. -/
def out1_9 (x0 : Vec F S2000x128 .f32) (x1 : Vec F S2000x128 .f32) (x2 : Vec F S2000x128 .f32) (x3 : Vec F S2000x128 .f32) (x4 : Vec F S2000x128 .f32) (x5 : Vec F S640x128 .f32) (x6 : Vec F S1x128 .f32) (x7 : Vec F S1x128 .f32) (x8 : Vec F S1x128 .f32) : Vec F S2000x128 .f32 :=
  View.canon [⟨blockRect, k1_pay1 (k1_pay2 (View.ld x5 weightRect) (View.ld x0 blockRect) (View.ld x1 blockRect) (View.ld x2 blockRect) (View.ld x3 blockRect) (View.ld x4 blockRect) (View.ld x6 rowRect))
    (View.ld x7 rowRect) (View.ld x8 rowRect)⟩]

/-- One store of the whole block covers the block. -/
theorem cover1 (p0 : Vec F S2000x128 .f32) (y : S2000x128.Idx) :
    ∃ pc ∈ ([⟨blockRect, p0⟩] : List (View.Piece (Elt F) S2000x128 .f32)), y ∈ pc.1.set :=
  View.cover_of_tiled [⟨blockRect, p0⟩] S2000x128.size (by rfl) y

/-! ## The body's run -/

set_option maxHeartbeats 2000000 in
/-- On whole staging buffers — the inputs at known contents, the output at anything — the body runs to its return
    with the inputs as they were and the output holding `out1_9` of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S640x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x128 .f32) (x4 : Vec F S2000x128 .f32) (x5 : Vec F S640x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1 _)

/-! ## The pipeline's record -/

/-- What the pipeline is told of this region on core `c`: the arrays as found; after the body at point `t` each input's
    buffer still at its block and the output's at `out1_9` of the input blocks; the invariant only the untouched scratch
    and the generator register; nothing owed; every array held whole but the one behind windows 1 and 4, held half by
    each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the run above applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regs

end
-- ==== Proof.KernelIdealRun.lean ====
/-
  The whole run of the program: a stretch of host operations (the gather of the source rows, the reshapes of the
  distances and positions), the first kernel region, a second stretch (the three scatter-adds into zeros, the
  transpose of the weight matrix, the reshapes of the bias, scale and shift), and the second kernel region.

  The contents of the core's buffers at each of the five boundaries are written as a fold from the launch memory: a
  host stretch applies its operations; a region leaves each of its output arrays at what its write-backs put there and
  every other buffer as it found it. Each region is then a segment between two such boundaries: its arrays are taken
  out of the buffers the core holds, handed to the pipeline, and put back at their final contents. In the second
  region ONE array stands behind two input windows; the core's whole hold on it is split into two halves on entry,
  one per window, and joined again on exit — both windows only read it, so both halves come back at the contents that
  went in.

  The conclusion: every weakly fair execution terminates, faults nowhere, and leaves every buffer the core holds
  outside the kernels' scratch at the last boundary's contents — in particular each argument as launched and the result
  at what the second region wrote.
-/
import proofs.«122298_j3444563771449_1_alg».proof.Proof.KernelIdealWeightRegion
import proofs.«122298_j3444563771449_1_alg».proof.Proof.KernelIdealFusedRegion
import proofs.«122298_j3444563771449_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the first region finds. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first region: its arrays at what the pipeline leaves, every other buffer as found. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: what the second region finds. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the second region: the result array at what the pipeline leaves, every other buffer as found. -/
def W4 (c : Dev nD) : Valuation τ sig (Elt F) :=
  Function.update (W3 m ρ c) (Proc.devRef .tc main_v23) ((dat1 (U3 m ρ) c).arrAt 9 cfg1.N)
theorem W4_result (c : Dev nD) : W4 m ρ c (Proc.devRef .tc main_v23) = (dat1 (U3 m ρ) c).arrAt 9 cfg1.N := by
  unfold W4; exact Function.update_self _ _ _
theorem W4_of_ne (c : Dev nD) (b : Ref sig .tc) (hb : b ≠ main_v23) :
    W4 m ρ c (Proc.devRef .tc b) = W3 m ρ c (Proc.devRef .tc b) := by
  unfold W4; exact Function.update_of_ne (StableHlo.devRef_ne_of_ne hb) _ _
abbrev U4 : (c : Dev nD) → (b : Ref sig .tc) → Buf (Elt F) ((c : Thread nD τ).loc b) := fun c b => W4 m ρ c b

/-! ## No segment writes an argument -/

theorem hostOps0_keeps (c : Dev nD) (W : Valuation τ sig (Elt F)) (b : Ref sig .tc)
    (hb : b ∉ ([main_c, main_v0, main_v1, main_c_0, main_v2, main_v3, main_v4, main_v5, main_v6, main_v7, main_v8] : List (Ref sig .tc))) :
    StableHlo.after (hostOps0 (F := F)) W (Proc.devRef .tc b) = W (Proc.devRef .tc b) :=
  StableHlo.after_of_writes_sub hostOps0 _ hostOps0_writes hb
theorem hostOps1_keeps (c : Dev nD) (W : Valuation τ sig (Elt F)) (b : Ref sig .tc)
    (hb : b ∉ ([main_cst, main_v10, main_v11, main_v12, main_cst_1, main_v13, main_v14, main_v15, main_cst_2, main_v16, main_v17, main_v18, main_v19, main_v20, main_v21, main_v22] : List (Ref sig .tc))) :
    StableHlo.after (hostOps1 (F := F)) W (Proc.devRef .tc b) = W (Proc.devRef .tc b) :=
  StableHlo.after_of_writes_sub hostOps1 _ hostOps1_writes hb

/-- An argument array is a window of neither region's outputs and no host operation's result: it ends as launched. -/
theorem W4_arg (c : Dev nD) (b : Ref sig .tc) (h4 : b ≠ main_v23)
    (h3 : b ∉ ([main_cst, main_v10, main_v11, main_v12, main_cst_1, main_v13, main_v14, main_v15, main_cst_2, main_v16, main_v17, main_v18, main_v19, main_v20, main_v21, main_v22] : List (Ref sig .tc)))
    (h2 : ∀ w, Pipeline.arrRef spec0 w ≠ b)
    (h1 : b ∉ ([main_c, main_v0, main_v1, main_c_0, main_v2, main_v3, main_v4, main_v5, main_v6, main_v7, main_v8] : List (Ref sig .tc))) :
    W4 m ρ c (Proc.devRef .tc b) = m ((c : Thread nD τ).loc b) :=
  (W4_of_ne m ρ c b h4).trans <| (hostOps1_keeps c _ b h3).trans <| (W2_of_ne m ρ c b h2).trans <| (hostOps0_keeps c _ b h1).trans rfl

/-! ## The pipelines' records and what rides beside the buffers -/

/-- No pipeline has a prefetched table. -/
abbrev adm : (p : Fin 2) → (pcfgs (F := F) p).Adm := fun p => (cfgs p).toPCfg_adm
/-- Each pipeline's record at the contents its region is entered from. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the buffers the core holds. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without what is owed. -/
abbrev Tₙ (c : Dev nD) : sProp 𝕄 := iprop(StableHlo.held (c : Thread nD τ) (Pipeline.ucRefs τ sig) (W4 m ρ c) ∗ ∃ r, prngReg c r)

/-! ## The second region's arrays: nine buffers behind ten windows -/

/-- The distinct buffers behind the second region's windows, one by one. -/
theorem arrBufs1_chain (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v12) ↦{fullShare} V main_v12)
          ∗ (((c : Thread nD τ).loc main_v15) ↦{fullShare} V main_v15) ∗ (((c : Thread nD τ).loc main_v18) ↦{fullShare} V main_v18)
          ∗ (((c : Thread nD τ).loc main_v19) ↦{fullShare} V main_v19) ∗ (((c : Thread nD τ).loc main_v20) ↦{fullShare} V main_v20)
          ∗ (((c : Thread nD τ).loc main_v21) ↦{fullShare} V main_v21) ∗ (((c : Thread nD τ).loc main_v22) ↦{fullShare} V main_v22)
          ∗ (((c : Thread nD τ).loc main_v23) ↦{fullShare} V main_v23)) := by
  unfold Pipeline.arrBufs
  exact bigSep_eq_bigSepL_of_eq [main_arg0, main_v12, main_v15, main_v18, main_v19, main_v20, main_v21, main_v22, main_v23] (by decide) (by decide) _

/-! ## The regions as segments -/

set_option backward.isDefEq.respectTransparency.types false in
/-- The first region between the boundaries `W1` and `W2`: its six arrays, all distinct, are taken out of the buffers
    the core holds and put back at their final contents; the generator register rides through the invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each window's share of its array in the second region: half and half for the two windows on one array. -/
theorem share1_0 (c : Dev nD) (V₀) : (dat1 (F := F) V₀ c).share 0 = fullShare := rfl
theorem share1_1 (c : Dev nD) (V₀) : (dat1 (F := F) V₀ c).share 1 = fullShare.left := rfl
theorem share1_2 (c : Dev nD) (V₀) : (dat1 (F := F) V₀ c).share 2 = fullShare := rfl
theorem share1_3 (c : Dev nD) (V₀) : (dat1 (F := F) V₀ c).share 3 = fullShare := rfl
theorem share1_4 (c : Dev nD) (V₀) : (dat1 (F := F) V₀ c).share 4 = fullShare.right := rfl
theorem share1_5 (c : Dev nD) (V₀) : (dat1 (F := F) V₀ c).share 5 = fullShare := rfl
theorem share1_6 (c : Dev nD) (V₀) : (dat1 (F := F) V₀ c).share 6 = fullShare := rfl
theorem share1_7 (c : Dev nD) (V₀) : (dat1 (F := F) V₀ c).share 7 = fullShare := rfl
theorem share1_8 (c : Dev nD) (V₀) : (dat1 (F := F) V₀ c).share 8 = fullShare := rfl
theorem share1_9 (c : Dev nD) (V₀) : (dat1 (F := F) V₀ c).share 9 = fullShare := rfl

/-- The ten windows' arrays: each a whole buffer, at the window's share. -/
theorem arrays1_eq (c : Dev nD) (V₀ : (c : Dev nD) → (b : Ref sig .tc) → Buf (Elt F) ((c : Thread nD τ).loc b))
    (G : (w : Fin cfg1.W) → Buf (Elt F) ((cfg1.win w).arr.view.loc (c : Thread nD τ))) :
    ((dat1 V₀ c).arrays G : sProp 𝕄)
      = bigSep Finset.univ fun w : Fin cfg1.W => ((((c : Thread nD τ).loc (Pipeline.arrRef spec1 w)) ↦{(dat1 V₀ c).share w} G w) : sProp 𝕄) := by
  unfold Dat.arrays
  exact bigSep_congr fun w _ => by rw [(arr_whole1 w).set_eq_univ]

/-- Equal assertions entail one another. -/
theorem ofEq {P Q : sProp 𝕄} (h : P = Q) : P ⊢ Q := by rw [h]

/-- ENTRY: the nine buffers held whole at `V` are the ten windows' arrays at `V`'s contents, the buffer behind
    windows 1 and 4 halved between them. -/
theorem arrays1_of_bufs (c : Dev nD) (V₀ : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ (dat1 V₀ c).arrays G := by
  rw [arrBufs1_chain, arrays1_eq, bigSep_W1]
  have e0 : ((((c : Thread nD τ).loc (Pipeline.arrRef spec1 0)) ↦{(dat1 V₀ c).share 0} G 0) : sProp 𝕄)
      = (((c : Thread nD τ).loc main_arg0) ↦{fullShare} V main_arg0) := by rw [hG 0]; rfl
  have e1 : ((((c : Thread nD τ).loc (Pipeline.arrRef spec1 1)) ↦{(dat1 V₀ c).share 1} G 1) : sProp 𝕄)
      = (((c : Thread nD τ).loc main_v12) ↦{fullShare.left} V main_v12) := by rw [hG 1]; rfl
  have e2 : ((((c : Thread nD τ).loc (Pipeline.arrRef spec1 2)) ↦{(dat1 V₀ c).share 2} G 2) : sProp 𝕄)
      = (((c : Thread nD τ).loc main_v15) ↦{fullShare} V main_v15) := by rw [hG 2]; rfl
  have e3 : ((((c : Thread nD τ).loc (Pipeline.arrRef spec1 3)) ↦{(dat1 V₀ c).share 3} G 3) : sProp 𝕄)
      = (((c : Thread nD τ).loc main_v18) ↦{fullShare} V main_v18) := by rw [hG 3]; rfl
  have e4 : ((((c : Thread nD τ).loc (Pipeline.arrRef spec1 4)) ↦{(dat1 V₀ c).share 4} G 4) : sProp 𝕄)
      = (((c : Thread nD τ).loc main_v12) ↦{fullShare.right} V main_v12) := by rw [hG 4]; rfl
  have e5 : ((((c : Thread nD τ).loc (Pipeline.arrRef spec1 5)) ↦{(dat1 V₀ c).share 5} G 5) : sProp 𝕄)
      = (((c : Thread nD τ).loc main_v19) ↦{fullShare} V main_v19) := by rw [hG 5]; rfl
  have e6 : ((((c : Thread nD τ).loc (Pipeline.arrRef spec1 6)) ↦{(dat1 V₀ c).share 6} G 6) : sProp 𝕄)
      = (((c : Thread nD τ).loc main_v20) ↦{fullShare} V main_v20) := by rw [hG 6]; rfl
  have e7 : ((((c : Thread nD τ).loc (Pipeline.arrRef spec1 7)) ↦{(dat1 V₀ c).share 7} G 7) : sProp 𝕄)
      = (((c : Thread nD τ).loc main_v21) ↦{fullShare} V main_v21) := by rw [hG 7]; rfl
  have e8 : ((((c : Thread nD τ).loc (Pipeline.arrRef spec1 8)) ↦{(dat1 V₀ c).share 8} G 8) : sProp 𝕄)
      = (((c : Thread nD τ).loc main_v22) ↦{fullShare} V main_v22) := by rw [hG 8]; rfl
  have e9 : ((((c : Thread nD τ).loc (Pipeline.arrRef spec1 9)) ↦{(dat1 V₀ c).share 9} G 9) : sProp 𝕄)
      = (((c : Thread nD τ).loc main_v23) ↦{fullShare} V main_v23) := by rw [hG 9]; rfl
  iintro ⟨H0, H12, H15, H18, H19, H20, H21, H22, H23⟩
  ihave Hs := (pointsTo_share (PosShare.mem_left_op_right fullShare)).1 $$ H12
  icases Hs with ⟨Hl, Hr⟩
  isplitl [H0]; · iapply (ofEq e0.symm); iexact H0
  isplitl [Hl]; · iapply (ofEq e1.symm); iexact Hl
  isplitl [H15]; · iapply (ofEq e2.symm); iexact H15
  isplitl [H18]; · iapply (ofEq e3.symm); iexact H18
  isplitl [Hr]; · iapply (ofEq e4.symm); iexact Hr
  isplitl [H19]; · iapply (ofEq e5.symm); iexact H19
  isplitl [H20]; · iapply (ofEq e6.symm); iexact H20
  isplitl [H21]; · iapply (ofEq e7.symm); iexact H21
  isplitl [H22]; · iapply (ofEq e8.symm); iexact H22
  iapply (ofEq e9.symm); iexact H23

/-- EXIT: the ten windows' arrays at `V`'s contents are the nine buffers held whole at `V`: the two halves join. -/
theorem bufs_of_arrays1 (c : Dev nD) (V₀ : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    ((dat1 V₀ c).arrays G : sProp 𝕄) ⊢ Pipeline.arrBufs (Ix := Unit) (Name := ℕ) (U := UR sig nD τ) (Lvl := ℕ) spec1 c V := by
  rw [arrBufs1_chain, arrays1_eq, bigSep_W1]
  have e0 : ((((c : Thread nD τ).loc (Pipeline.arrRef spec1 0)) ↦{(dat1 V₀ c).share 0} G 0) : sProp 𝕄)
      = (((c : Thread nD τ).loc main_arg0) ↦{fullShare} V main_arg0) := by rw [hG 0]; rfl
  have e1 : ((((c : Thread nD τ).loc (Pipeline.arrRef spec1 1)) ↦{(dat1 V₀ c).share 1} G 1) : sProp 𝕄)
      = (((c : Thread nD τ).loc main_v12) ↦{fullShare.left} V main_v12) := by rw [hG 1]; rfl
  have e2 : ((((c : Thread nD τ).loc (Pipeline.arrRef spec1 2)) ↦{(dat1 V₀ c).share 2} G 2) : sProp 𝕄)
      = (((c : Thread nD τ).loc main_v15) ↦{fullShare} V main_v15) := by rw [hG 2]; rfl
  have e3 : ((((c : Thread nD τ).loc (Pipeline.arrRef spec1 3)) ↦{(dat1 V₀ c).share 3} G 3) : sProp 𝕄)
      = (((c : Thread nD τ).loc main_v18) ↦{fullShare} V main_v18) := by rw [hG 3]; rfl
  have e4 : ((((c : Thread nD τ).loc (Pipeline.arrRef spec1 4)) ↦{(dat1 V₀ c).share 4} G 4) : sProp 𝕄)
      = (((c : Thread nD τ).loc main_v12) ↦{fullShare.right} V main_v12) := by rw [hG 4]; rfl
  have e5 : ((((c : Thread nD τ).loc (Pipeline.arrRef spec1 5)) ↦{(dat1 V₀ c).share 5} G 5) : sProp 𝕄)
      = (((c : Thread nD τ).loc main_v19) ↦{fullShare} V main_v19) := by rw [hG 5]; rfl
  have e6 : ((((c : Thread nD τ).loc (Pipeline.arrRef spec1 6)) ↦{(dat1 V₀ c).share 6} G 6) : sProp 𝕄)
      = (((c : Thread nD τ).loc main_v20) ↦{fullShare} V main_v20) := by rw [hG 6]; rfl
  have e7 : ((((c : Thread nD τ).loc (Pipeline.arrRef spec1 7)) ↦{(dat1 V₀ c).share 7} G 7) : sProp 𝕄)
      = (((c : Thread nD τ).loc main_v21) ↦{fullShare} V main_v21) := by rw [hG 7]; rfl
  have e8 : ((((c : Thread nD τ).loc (Pipeline.arrRef spec1 8)) ↦{(dat1 V₀ c).share 8} G 8) : sProp 𝕄)
      = (((c : Thread nD τ).loc main_v22) ↦{fullShare} V main_v22) := by rw [hG 8]; rfl
  have e9 : ((((c : Thread nD τ).loc (Pipeline.arrRef spec1 9)) ↦{(dat1 V₀ c).share 9} G 9) : sProp 𝕄)
      = (((c : Thread nD τ).loc main_v23) ↦{fullShare} V main_v23) := by rw [hG 9]; rfl
  iintro ⟨H0, Hl, H15, H18, Hr, H19, H20, H21, H22, H23⟩
  isplitl [H0]; · iapply (ofEq e0); iexact H0
  isplitl [Hl Hr]
  · iapply (pointsTo_share (PosShare.mem_left_op_right fullShare)).2
    isplitl [Hl]; · iapply (ofEq e1); iexact Hl
    iapply (ofEq e4); iexact Hr
  isplitl [H15]; · iapply (ofEq e2); iexact H15
  isplitl [H18]; · iapply (ofEq e3); iexact H18
  isplitl [H19]; · iapply (ofEq e5); iexact H19
  isplitl [H20]; · iapply (ofEq e6); iexact H20
  isplitl [H21]; · iapply (ofEq e7); iexact H21
  isplitl [H22]; · iapply (ofEq e8); iexact H22
  iapply (ofEq e9); iexact H23

/-- The second region's arrays when it is entered are the contents found. -/
theorem hG3 (c : Dev nD) (w : Fin cfg1.W) : (dat1 (U3 m ρ) c).arrAt w 0 = U3 m ρ c (Pipeline.arrRef spec1 w) := by
  show (dat1 (U3 m ρ) c).A w = _; exact A_eq1 (U3 m ρ) c w

/-- An input window's array is never written: at every point it is the contents found. -/
theorem arrAt1_in (c : Dev nD) (w : Fin cfg1.W) (hw : (cfg1.win w).isOut = false) (n : ℕ) :
    (dat1 (U3 m ρ) c).arrAt w n = U3 m ρ c (Pipeline.arrRef spec1 w) :=
  ((dat1 (U3 m ρ) c).arrAt_in w hw n).trans (A_eq1 (U3 m ρ) c w)
/-- Every window of the second region but the last is an input, and its array is not the result. -/
theorem isIn1 : ∀ w : Fin cfg1.W, w ≠ 9 → (cfg1.win w).isOut = false := by decide
theorem arr_ne1 : ∀ w : Fin cfg1.W, w ≠ 9 → Pipeline.arrRef spec1 w ≠ main_v23 := by decide

/-- … and when it is left: an input's as found, the result's at what the pipeline wrote. -/
theorem hG4 (c : Dev nD) (w : Fin cfg1.W) : (dat1 (U3 m ρ) c).arrAt w cfg1.N = U4 m ρ c (Pipeline.arrRef spec1 w) := by
  by_cases h : w = 9
  · subst h
    show _ = W4 m ρ c (Proc.devRef .tc main_v23)
    exact (W4_result m ρ c).symm
  · exact (arrAt1_in m ρ c w (isIn1 w h) _).trans (W4_of_ne m ρ c _ (arr_ne1 w h)).symm

/-- The buffers that are no window's array of the second region are not the result: they leave as they entered. -/
theorem rest1_eq (c : Dev nD) :
    (Pipeline.unscopedRest (Ix := Unit) (Name := ℕ) (U := UR sig nD τ) (Lvl := ℕ) spec1 c (U3 m ρ c) : sProp 𝕄)
      = Pipeline.unscopedRest spec1 c (U4 m ρ c) := by
  unfold Pipeline.unscopedRest
  refine bigSep_congr fun b hb => ?_
  have hne : b ≠ main_v23 := fun e => (Finset.mem_sdiff.mp hb).2 (Finset.mem_image.mpr ⟨9, Finset.mem_univ _, e.symm⟩)
  rw [show U4 m ρ c b = U3 m ρ c b from W4_of_ne m ρ c b hne]

/-- ENTRY of the second region: the buffers the core holds at the contents found are the ten windows' arrays at those
    contents and the buffers that are no window's array. -/
theorem bufs1_split (c : Dev nD) :
    (StableHlo.held (c : Thread nD τ) (Pipeline.ucRefs τ sig) (W3 m ρ c) : sProp 𝕄)
      ⊢ iprop((dat1 (U3 m ρ) c).arrays ((dat1 (U3 m ρ) c).arrAt · 0)
          ∗ Pipeline.unscopedRest (Ix := Unit) (Name := ℕ) (U := UR sig nD τ) (Lvl := ℕ) spec1 c (U3 m ρ c)) := by
  have hs : (StableHlo.held (c : Thread nD τ) (Pipeline.ucRefs τ sig) (W3 m ρ c) : sProp 𝕄)
      = iprop((Pipeline.arrBufs (Ix := Unit) (Name := ℕ) (U := UR sig nD τ) (Lvl := ℕ) spec1 c (U3 m ρ c) : sProp 𝕄)
          ∗ Pipeline.unscopedRest (Ix := Unit) (Name := ℕ) (U := UR sig nD τ) (Lvl := ℕ) spec1 c (U3 m ρ c)) := by
    rw [← Pipeline.unscopedBufs_held]
    exact Pipeline.unscopedBufs_split₀ (Ix := Unit) (Name := ℕ) (U := UR sig nD τ) (Lvl := ℕ) (cfgs) 1 winFacts₀1.arr_unscoped c (U3 m ρ c)
  have ha := arrays1_of_bufs c (U3 m ρ) (U3 m ρ c) ((dat1 (U3 m ρ) c).arrAt · 0) (hG3 m ρ c)
  rw [hs]
  iintro ⟨Hb, Hr⟩
  isplitl [Hb]
  · iapply ha; iexact Hb
  iexact Hr

/-- EXIT: the ten arrays at their final contents and the other buffers as found are the buffers the core holds at the
    last boundary's contents. -/
theorem bufs1_join (c : Dev nD) :
    iprop((dat1 (U3 m ρ) c).arrays ((dat1 (U3 m ρ) c).arrAt · cfg1.N)
        ∗ Pipeline.unscopedRest (Ix := Unit) (Name := ℕ) (U := UR sig nD τ) (Lvl := ℕ) spec1 c (U3 m ρ c))
      ⊢ (StableHlo.held (c : Thread nD τ) (Pipeline.ucRefs τ sig) (W4 m ρ c) : sProp 𝕄) := by
  have hs : (StableHlo.held (c : Thread nD τ) (Pipeline.ucRefs τ sig) (W4 m ρ c) : sProp 𝕄)
      = iprop((Pipeline.arrBufs (Ix := Unit) (Name := ℕ) (U := UR sig nD τ) (Lvl := ℕ) spec1 c (U4 m ρ c) : sProp 𝕄)
          ∗ Pipeline.unscopedRest (Ix := Unit) (Name := ℕ) (U := UR sig nD τ) (Lvl := ℕ) spec1 c (U4 m ρ c)) := by
    rw [← Pipeline.unscopedBufs_held]
    exact Pipeline.unscopedBufs_split₀ (Ix := Unit) (Name := ℕ) (U := UR sig nD τ) (Lvl := ℕ) (cfgs) 1 winFacts₀1.arr_unscoped c (U4 m ρ c)
  have ha := bufs_of_arrays1 c (U3 m ρ) (U4 m ρ c) ((dat1 (U3 m ρ) c).arrAt · cfg1.N) (hG4 m ρ c)
  rw [hs, ← rest1_eq]
  iintro ⟨Ha, Hr⟩
  isplitl [Ha]
  · iapply ha; iexact Ha
  iexact Hr

set_option backward.isDefEq.respectTransparency.types false in
/-- The second region between the boundaries `W3` and `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsp := bufs1_split m ρ c
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hj := bufs1_join m ρ c
    iintro ⟨Ha, HO, HY, Hrest⟩
    imodintro
    isplitl [Ha Hrest HY]
    · isplitl [Ha Hrest]
      · iapply hj
        isplitl [Ha]; · iexact Ha
        iexact Hrest
      iexact HY
    unfold Pipeline.Dat.owesAt Pipeline.owesWithin
    icases HO with ⟨%W, -, HO⟩; iexists W; iexact HO

/-! ## The run -/

/-- The four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution from memory `m` with zero counters terminates, faults nowhere, and ends with every
    buffer the core holds outside the kernels' scratch at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Regs

end
-- ==== Proof.Spec.lean ====
/-
  The graph layer both programs compute, on the extended reals.

  A node's row is built from five 128-wide pieces — its own features and four edge aggregations, the first and the
  last of which are the same sum — pushed through one affine map with 640 input columns, normalised along the 128
  output columns (mean and mean squared deviation, a small constant under the reciprocal square root), scaled,
  shifted and clipped below at zero.

  Two arrangements of the affine map are stated: one contraction over the 640 columns of the concatenated row, and
  five 128-column contractions added from left to right. They are the same extended real: a finite sum may be
  regrouped and reordered freely, addition on the extended reals being commutative and associative.
-/
import Idealize.ShloMosaic.PureOps.Ideal

noncomputable section

open scoped BigOperators

namespace Cert.Layer

open Idealize.ShloMosaic

/-- The divisor of the two row means: the float word of 128. -/
def c128 : EReal := Ideal.ofBits .f32 0x43000000#32
/-- The constant added under the reciprocal square root: the float word nearest 1e-5. -/
def eps : EReal := Ideal.ofBits .f32 0x3727C5AC#32

/-- The mean of a row of 128. -/
def rowMean (z : Fin 128 → EReal) : EReal := Ideal.div (∑ j : Fin 128, z j) c128
/-- The mean squared deviation of a row of 128 from its mean. -/
def rowVar (z : Fin 128 → EReal) : EReal :=
  Ideal.div (∑ j : Fin 128, (z j - rowMean z) * (z j - rowMean z)) c128
/-- A row normalised, scaled by `γ`, shifted by `β`, clipped below at zero, at column `o`. -/
def normRow (z γ β : Fin 128 → EReal) (o : Fin 128) : EReal :=
  max ((z o - rowMean z) * Ideal.rsqrt (rowVar z + eps) * γ o + β o) 0

/-- Column `j` of piece `k` among the 640 concatenated columns. -/
def col (k : Fin 5) (j : Fin 128) : Fin 640 := ⟨128 * k.val + j.val, by omega⟩

/-- The concatenated row at column `c`: piece `c / 128` at `c % 128`. -/
def catRow (x : Fin 5 → Fin 128 → EReal) (c : Fin 640) : EReal :=
  x ⟨c.val / 128, by omega⟩ ⟨c.val % 128, Nat.mod_lt _ (by norm_num)⟩

/-- The affine map as ONE contraction over the concatenated row. -/
def linCat (x : Fin 5 → Fin 128 → EReal) (w : Fin 640 → EReal) (b : EReal) : EReal :=
  (∑ c : Fin 640, catRow x c * w c) + b

/-- The affine map as FIVE contractions, one per piece, added from left to right. -/
def linBlocks (x : Fin 5 → Fin 128 → EReal) (w : Fin 640 → EReal) (b : EReal) : EReal :=
  (∑ j : Fin 128, x 0 j * w (col 0 j)) + (∑ j : Fin 128, x 1 j * w (col 1 j)) + (∑ j : Fin 128, x 2 j * w (col 2 j))
    + (∑ j : Fin 128, x 3 j * w (col 3 j)) + (∑ j : Fin 128, x 4 j * w (col 4 j)) + b

/-- An edge's weight for direction `p`: its distance when its position word is `p`, else zero. -/
def masked (p q : BitVec 32) (d : EReal) : EReal := if q = p then d else 0

/-- The five pieces of a node's row: its own features, then the aggregations for directions 0, 1, 2, and
    direction 0 once more. -/
def pieces (h d0 d1 d2 : Fin 128 → EReal) : Fin 5 → Fin 128 → EReal := ![h, d0, d1, d2, d0]

/-- The layer's output at node `n`, column `o`, from the nodes' features `h`, the three aggregations, the weight
    matrix (output column first), the bias, the scale and the shift. -/
def layer (h d0 d1 d2 : Fin 50000 → Fin 128 → EReal) (w : Fin 128 → Fin 640 → EReal) (b γ β : Fin 128 → EReal)
    (n : Fin 50000) (o : Fin 128) : EReal :=
  normRow (fun o' => linCat (pieces (h n) (d0 n) (d1 n) (d2 n)) (w o') (b o')) γ β o

end Cert.Layer

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelPayload.lean ====
/-
  The first kernel's three stored values, each read at one index, over variables for everything the kernel loads:
  the gathered feature row times the edge's distance where the edge's position word is the direction's word, times
  zero elsewhere.
-/
import proofs.«122298_j3444563771449_1_alg».proof.Proof.Gen.KernelIdeal.Skeleton
import proofs.«122298_j3444563771449_1_alg».proof.Proof.Spec
import proofs.«122298_j3444563771449_1_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen

/-! ## Words -/

/-- The equality test of a word with itself is the bit one. -/
theorem cmpi_eq_self (q : BitVec 32) : IntOp.cmpi .eq q q = 1#1 := by simp [IntOp.cmpi]

/-- The equality test of two different words is the bit zero. -/
theorem cmpi_eq_of_ne {p q : BitVec 32} (h : ¬q = p) : IntOp.cmpi .eq q p = 0#1 := by
  have hb : (q == p) = false := beq_eq_false_iff_ne.mpr h
  simp [IntOp.cmpi, hb]

/-- A select between a value and the zero word on the test "the position word is p" is the value where the position
    word is p and zero elsewhere. -/
theorem select_cmpi_eq (p q : BitVec 32) (d : EReal) :
    Scalar.select (IntOp.cmpi .eq q p) d (Ideal.ofBits .f32 0x00000000#32) = Cert.Layer.masked p q d := by
  unfold Cert.Layer.masked
  by_cases h : q = p
  · subst h; rw [cmpi_eq_self, select_one, if_pos rfl]
  · rw [cmpi_eq_of_ne h, select_zero, if_neg h, Ideal.ofBits_zero_f32]

/-! ## The first kernel -/

/-- A feature row times the masked distance column spread over the row's 128 columns, at (e, j). -/
theorem weight_at (p : BitVec 32) (v0 : FVec Ideal S4000x128 .f32) (v2 : FVec Ideal S4000x1 .f32) (v4 : IVec S4000x1 32)
    (h0 : S4000x128.ShapeCasts S4000x128) (h2 h4 : S4000x1.ShapeCasts S4000x1) (hb : S4000x1.Broadcasts S4000x128)
    (e : Fin 4000) (j : Fin 128) :
    mulf (shapeCast S4000x128 v0 h0)
        (broadcastTo S4000x128
          (select (cmpi .eq (shapeCast S4000x1 v4 h4) (broadcast S4000x1 p)) (shapeCast S4000x1 v2 h2)
            (broadcast S4000x1 (Scalar.ofBits (F := Ideal) .f32 0x00000000#32))) hb) (ix2 e j)
      = v0 (ix2 e j) * Cert.Layer.masked p (v4 (ix2 e (0 : Fin 1))) (v2 (ix2 e (0 : Fin 1))) := by
  rw [shapeCast_self v0 h0, shapeCast_self v2 h2, shapeCast_self v4 h4]
  show v0 (ix2 e j) * broadcastTo S4000x128 _ hb (ix2 e j) = _
  rw [Cert.LibKeepdims.broadcastTo_a1_ab_apply]
  exact congrArg (v0 (ix2 e j) * ·) (select_cmpi_eq p (v4 (ix2 e (0 : Fin 1))) (v2 (ix2 e (0 : Fin 1))))

theorem weight0_at (v0 : Vec Ideal S4000x128 .f32) (v2 : Vec Ideal S4000x1 .f32) (v4 : Vec Ideal S4000x1 .i32)
    (e : Fin 4000) (j : Fin 128) :
    k0_pay4 (F := Ideal) v0 v2 v4 (ix2 e j)
      = v0 (ix2 e j) * Cert.Layer.masked 0#32 (v4 (ix2 e (0 : Fin 1))) (v2 (ix2 e (0 : Fin 1))) := by
  unfold k0_pay4 k0_pay1 k0_pay2 k0_pay3
  exact weight_at 0#32 v0 v2 v4 _ _ _ _ e j

theorem weight1_at (v0 : Vec Ideal S4000x128 .f32) (v2 : Vec Ideal S4000x1 .f32) (v4 : Vec Ideal S4000x1 .i32)
    (e : Fin 4000) (j : Fin 128) :
    k0_pay5 (F := Ideal) v0 v2 v4 (ix2 e j)
      = v0 (ix2 e j) * Cert.Layer.masked 1#32 (v4 (ix2 e (0 : Fin 1))) (v2 (ix2 e (0 : Fin 1))) := by
  unfold k0_pay5 k0_pay1 k0_pay2 k0_pay3
  exact weight_at 1#32 v0 v2 v4 _ _ _ _ e j

theorem weight2_at (v0 : Vec Ideal S4000x128 .f32) (v2 : Vec Ideal S4000x1 .f32) (v4 : Vec Ideal S4000x1 .i32)
    (e : Fin 4000) (j : Fin 128) :
    k0_pay6 (F := Ideal) v0 v2 v4 (ix2 e j)
      = v0 (ix2 e j) * Cert.Layer.masked 2#32 (v4 (ix2 e (0 : Fin 1))) (v2 (ix2 e (0 : Fin 1))) := by
  unfold k0_pay6 k0_pay1 k0_pay2 k0_pay3
  exact weight_at 2#32 v0 v2 v4 _ _ _ _ e j

end Cert.KernelIdeal.PayloadAt

end
-- ==== Proof.KernelIdealWeightValue.lean ====
/-
  The first kernel region's three output arrays after the last grid point, each as one function of the arrays the
  region finds on entry: row i of the output for direction p is row i of the gathered features times edge i's distance
  where edge i's position word is p, and times zero elsewhere.

  Point t of the 200 reads rows 4000·t … 4000·t + 3999 of each input and writes back the same rows of each output; the
  200 blocks tile the 800000 rows.
-/
import proofs.«122298_j3444563771449_1_alg».proof.Proof.KernelIdealWeightRegion
import proofs.«122298_j3444563771449_1_alg».proof.Proof.KernelPayload
import Idealize.ShloMosaic.Lib.Pipeline.Value

set_option maxRecDepth 16384

noncomputable section

namespace Cert.KernelIdeal.Regs

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the core's buffer contents when the region is entered
variable (V : (c : Dev nD) → (b : Ref sig .tc) → Buf (Elt Ideal) ((c : Thread nD τ).loc b))

/-- The zero offsets of a whole-block access. -/
theorem hz0 : (![0, 0] : Fin 2 → Nat) = fun _ => 0 := funext fun a => by fin_cases a <;> rfl

/-- The rows weighted for direction `p`, over the whole edge list: row `i` of the features times edge `i`'s
    distance where its position word is `p`, times zero elsewhere. -/
def weightedAll (p : BitVec 32) (hs : S800000x128.Idx → EReal) (d : S800000x1.Idx → EReal)
    (q : S800000x1.Idx → BitVec 32) : S800000x128.Idx → EReal :=
  fun i => hs i * Cert.Layer.masked p (q (ix2 (⟨(i 0).val, (i 0).isLt⟩ : Fin 800000) (0 : Fin 1)))
    (d (ix2 (⟨(i 0).val, (i 0).isLt⟩ : Fin 800000) (0 : Fin 1)))

/-- Every window's block at point `t` is block `t` along the rows and block 0 along the columns. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-! ## The input blocks read at an index -/

/-- The feature block at point `t`, at (e, j), is the feature array at row `4000·t + e`, column `j`. -/
theorem iblk0_0_apply (c : Dev nD) (t : Fin cfg0.N) (e : Fin 4000) (j : Fin 128) (k : S800000x128.Idx)
    (hk0 : (k 0).val = 4000 * t.val + e.val) (hk1 : (k 1).val = j.val) :
    (iblk0 V c 0 t : Vec Ideal S4000x128 .f32) (ix2 e j) = (V c main_v6 : S800000x128.Idx → EReal) k := by
  obtain ⟨⟨h0, h1⟩, -⟩ := idx0 t
  unfold iblk0
  rw [View.read_apply]
  show (V c main_v6 : S800000x128.Idx → EReal) _ = _
  refine congrArg (V c main_v6 : S800000x128.Idx → EReal) ?_
  funext a
  apply Fin.ext
  match a with
  | ⟨0, _⟩ => show win0_0.index t 0 * 4000 + 1 * e.val = (k 0).val; rw [h0, hk0]; omega
  | ⟨1, _⟩ => show win0_0.index t 1 * 128 + 1 * j.val = (k 1).val; rw [h1, hk1]; omega

/-- The distance block at point `t`, at (e, ·), is the distance column at row `4000·t + e`. -/
theorem iblk0_1_apply (c : Dev nD) (t : Fin cfg0.N) (e : Fin 4000) (u : Fin 1) (k : S800000x1.Idx)
    (hk0 : (k 0).val = 4000 * t.val + e.val) :
    (iblk0 V c 1 t : Vec Ideal S4000x1 .f32) (ix2 e u) = (V c main_v7 : S800000x1.Idx → EReal) k := by
  obtain ⟨-, ⟨h0, h1⟩, -⟩ := idx0 t
  unfold iblk0
  rw [View.read_apply]
  show (V c main_v7 : S800000x1.Idx → EReal) _ = _
  refine congrArg (V c main_v7 : S800000x1.Idx → EReal) ?_
  funext a
  apply Fin.ext
  have hu : u.val = 0 := by omega
  have hk1 : (k 1).val = 0 := by have : (k 1).val < 1 := (k 1).isLt; omega
  match a with
  | ⟨0, _⟩ => show win0_1.index t 0 * 4000 + 1 * e.val = (k 0).val; rw [h0, hk0]; omega
  | ⟨1, _⟩ => show win0_1.index t 1 * 1 + 1 * u.val = (k 1).val; rw [h1, hk1, hu]

/-- The position-word block at point `t`, at (e, ·), is the position-word column at row `4000·t + e`. -/
theorem iblk0_2_apply (c : Dev nD) (t : Fin cfg0.N) (e : Fin 4000) (u : Fin 1) (k : S800000x1.Idx)
    (hk0 : (k 0).val = 4000 * t.val + e.val) :
    (iblk0 V c 2 t : Vec Ideal S4000x1 .i32) (ix2 e u) = (V c main_v8 : S800000x1.Idx → BitVec 32) k := by
  obtain ⟨-, -, ⟨h0, h1⟩, -⟩ := idx0 t
  unfold iblk0
  rw [View.read_apply]
  show (V c main_v8 : S800000x1.Idx → BitVec 32) _ = _
  refine congrArg (V c main_v8 : S800000x1.Idx → BitVec 32) ?_
  funext a
  apply Fin.ext
  have hu : u.val = 0 := by omega
  have hk1 : (k 1).val = 0 := by have : (k 1).val < 1 := (k 1).isLt; omega
  match a with
  | ⟨0, _⟩ => show win0_2.index t 0 * 4000 + 1 * e.val = (k 0).val; rw [h0, hk0]; omega
  | ⟨1, _⟩ => show win0_2.index t 1 * 1 + 1 * u.val = (k 1).val; rw [h1, hk1, hu]

/-- A product of a feature entry with a masked distance is the weighted rows' entry at `k`, when the three factors
    are the three arrays' entries in row `k 0` (the feature at column `k 1`). -/
theorem weighted_eq (p : BitVec 32) (hs : S800000x128.Idx → EReal) (d : S800000x1.Idx → EReal)
    (q : S800000x1.Idx → BitVec 32) (a dd : EReal) (qq : BitVec 32) (k : S800000x128.Idx) (ha : a = hs k)
    (hq : qq = q (ix2 (⟨(k 0).val, (k 0).isLt⟩ : Fin 800000) (0 : Fin 1)))
    (hd : dd = d (ix2 (⟨(k 0).val, (k 0).isLt⟩ : Fin 800000) (0 : Fin 1))) :
    a * Cert.Layer.masked p qq dd = weightedAll p hs d q k := by
  subst ha hq hd; rfl

/-! ## Output window 3: direction 0 -/

/-- What point `t` writes back is block `t` of the weighted rows. -/
theorem flushed0_3_eq (c : Dev nD) (t : Fin cfg0.N) :
    (dat0 (F := Ideal) V c).flushed 3 t
      = ((cfg0.win 3).blk t).view.read (Elt Ideal) (weightedAll 0#32 (V c main_v6) (V c main_v7) (V c main_v8)) := by
  show (cfg0.win 3).cut (grid0.coords t) ((dat0 V c).after 3 t) = _
  rw [after0_3]
  unfold out0_3
  rw [View.canon_unit_zero hz0]
  simp only [View.ld_unit_zero (S := S4000x128) hz0, View.ld_unit_zero (S := S4000x1) hz0]
  obtain ⟨-, -, -, ⟨h0, h1⟩, -⟩ := idx0 t
  funext y
  obtain ⟨e, j, rfl⟩ : ∃ (e : Fin 4000) (j : Fin 128), y = ix2 e j := ⟨y 0, y 1, eq_ix2 y⟩
  rw [View.read_apply]
  refine (PayloadAt.weight0_at _ _ _ e j).trans ?_
  have hk0 : ((((cfg0.win 3).blk t).view.emb (ix2 e j)) 0).val = 4000 * t.val + e.val := by
    show win0_3.index t 0 * 4000 + 1 * e.val = _; rw [h0]; omega
  have hk1 : ((((cfg0.win 3).blk t).view.emb (ix2 e j)) 1).val = j.val := by
    show win0_3.index t 1 * 128 + 1 * j.val = _; rw [h1]; omega
  exact weighted_eq 0#32 _ _ _ _ _ _ _ (iblk0_0_apply V c t e j _ hk0 hk1) (iblk0_2_apply V c t e 0 _ hk0)
    (iblk0_1_apply V c t e 0 _ hk0)

/-- An index of the array is in point `t`'s block iff each coordinate is in the block's range on its axis. -/
theorem mem_blk0_3 (t : Fin cfg0.N) (i : S800000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v9_0).slice (win0_3.rect t)).set ↔ _
  rw [View.set_slice_whole, Rect.mem_set_unit]
  exact Iff.rfl

/-- Every row is in the block of the point numbered by the row's quotient by 4000. -/
theorem cover0_3 (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have hN : grid0.N = 200 := Gen.N_0
  have ht : (i 0).val / 4000 < cfg0.N := by show _ < grid0.N; rw [hN]; omega
  refine ⟨⟨(i 0).val / 4000, ht⟩, flush0_3 _, ?_⟩
  rw [mem_blk0_3]
  obtain ⟨-, -, -, ⟨h0, h1⟩, -⟩ := idx0 ⟨(i 0).val / 4000, ht⟩
  intro a
  match a with
  | ⟨0, _⟩ =>
    show win0_3.index ⟨(i 0).val / 4000, ht⟩ 0 * 4000 ≤ (i 0).val
      ∧ (i 0).val < win0_3.index ⟨(i 0).val / 4000, ht⟩ 0 * 4000 + 4000
    rw [h0]; show (i 0).val / 4000 * 4000 ≤ (i 0).val ∧ (i 0).val < (i 0).val / 4000 * 4000 + 4000; omega
  | ⟨1, _⟩ =>
    show win0_3.index ⟨(i 0).val / 4000, ht⟩ 1 * 128 ≤ (i 1).val
      ∧ (i 1).val < win0_3.index ⟨(i 0).val / 4000, ht⟩ 1 * 128 + 128
    rw [h1]; omega

/-- The output array for direction 0 after the last point: the weighted rows over the whole edge list. -/
theorem final0_3 (c : Dev nD) :
    (dat0 (F := Ideal) V c).arrAt 3 cfg0.N = weightedAll 0#32 (V c main_v6) (V c main_v7) (V c main_v8) :=
  (dat0 (F := Ideal) V c).arrAt_eq_of_cover 3 (weightedAll 0#32 (V c main_v6) (V c main_v7) (V c main_v8))
    (fun t _ => flushed0_3_eq V c t) cover0_3

/-! ## Output window 4: direction 1 -/

/-- What point `t` writes back is block `t` of the weighted rows. -/
theorem flushed0_4_eq (c : Dev nD) (t : Fin cfg0.N) :
    (dat0 (F := Ideal) V c).flushed 4 t
      = ((cfg0.win 4).blk t).view.read (Elt Ideal) (weightedAll 1#32 (V c main_v6) (V c main_v7) (V c main_v8)) := by
  show (cfg0.win 4).cut (grid0.coords t) ((dat0 V c).after 4 t) = _
  rw [after0_4]
  unfold out0_4
  rw [View.canon_unit_zero hz0]
  simp only [View.ld_unit_zero (S := S4000x128) hz0, View.ld_unit_zero (S := S4000x1) hz0]
  obtain ⟨-, -, -, -, ⟨h0, h1⟩, -⟩ := idx0 t
  funext y
  obtain ⟨e, j, rfl⟩ : ∃ (e : Fin 4000) (j : Fin 128), y = ix2 e j := ⟨y 0, y 1, eq_ix2 y⟩
  rw [View.read_apply]
  refine (PayloadAt.weight1_at _ _ _ e j).trans ?_
  have hk0 : ((((cfg0.win 4).blk t).view.emb (ix2 e j)) 0).val = 4000 * t.val + e.val := by
    show win0_4.index t 0 * 4000 + 1 * e.val = _; rw [h0]; omega
  have hk1 : ((((cfg0.win 4).blk t).view.emb (ix2 e j)) 1).val = j.val := by
    show win0_4.index t 1 * 128 + 1 * j.val = _; rw [h1]; omega
  exact weighted_eq 1#32 _ _ _ _ _ _ _ (iblk0_0_apply V c t e j _ hk0 hk1) (iblk0_2_apply V c t e 0 _ hk0)
    (iblk0_1_apply V c t e 0 _ hk0)

/-- An index of the array is in point `t`'s block iff each coordinate is in the block's range on its axis. -/
theorem mem_blk0_4 (t : Fin cfg0.N) (i : S800000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v9_1).slice (win0_4.rect t)).set ↔ _
  rw [View.set_slice_whole, Rect.mem_set_unit]
  exact Iff.rfl

/-- Every row is in the block of the point numbered by the row's quotient by 4000. -/
theorem cover0_4 (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : grid0.N = 200 := Gen.N_0
  have ht : (i 0).val / 4000 < cfg0.N := by show _ < grid0.N; rw [hN]; omega
  refine ⟨⟨(i 0).val / 4000, ht⟩, flush0_4 _, ?_⟩
  rw [mem_blk0_4]
  obtain ⟨-, -, -, -, ⟨h0, h1⟩, -⟩ := idx0 ⟨(i 0).val / 4000, ht⟩
  intro a
  match a with
  | ⟨0, _⟩ =>
    show win0_4.index ⟨(i 0).val / 4000, ht⟩ 0 * 4000 ≤ (i 0).val
      ∧ (i 0).val < win0_4.index ⟨(i 0).val / 4000, ht⟩ 0 * 4000 + 4000
    rw [h0]; show (i 0).val / 4000 * 4000 ≤ (i 0).val ∧ (i 0).val < (i 0).val / 4000 * 4000 + 4000; omega
  | ⟨1, _⟩ =>
    show win0_4.index ⟨(i 0).val / 4000, ht⟩ 1 * 128 ≤ (i 1).val
      ∧ (i 1).val < win0_4.index ⟨(i 0).val / 4000, ht⟩ 1 * 128 + 128
    rw [h1]; omega

/-- The output array for direction 1 after the last point: the weighted rows over the whole edge list. -/
theorem final0_4 (c : Dev nD) :
    (dat0 (F := Ideal) V c).arrAt 4 cfg0.N = weightedAll 1#32 (V c main_v6) (V c main_v7) (V c main_v8) :=
  (dat0 (F := Ideal) V c).arrAt_eq_of_cover 4 (weightedAll 1#32 (V c main_v6) (V c main_v7) (V c main_v8))
    (fun t _ => flushed0_4_eq V c t) cover0_4

/-! ## Output window 5: direction 2 -/

/-- What point `t` writes back is block `t` of the weighted rows. -/
theorem flushed0_5_eq (c : Dev nD) (t : Fin cfg0.N) :
    (dat0 (F := Ideal) V c).flushed 5 t
      = ((cfg0.win 5).blk t).view.read (Elt Ideal) (weightedAll 2#32 (V c main_v6) (V c main_v7) (V c main_v8)) := by
  show (cfg0.win 5).cut (grid0.coords t) ((dat0 V c).after 5 t) = _
  rw [after0_5]
  unfold out0_5
  rw [View.canon_unit_zero hz0]
  simp only [View.ld_unit_zero (S := S4000x128) hz0, View.ld_unit_zero (S := S4000x1) hz0]
  obtain ⟨-, -, -, -, -, h0, h1⟩ := idx0 t
  funext y
  obtain ⟨e, j, rfl⟩ : ∃ (e : Fin 4000) (j : Fin 128), y = ix2 e j := ⟨y 0, y 1, eq_ix2 y⟩
  rw [View.read_apply]
  refine (PayloadAt.weight2_at _ _ _ e j).trans ?_
  have hk0 : ((((cfg0.win 5).blk t).view.emb (ix2 e j)) 0).val = 4000 * t.val + e.val := by
    show win0_5.index t 0 * 4000 + 1 * e.val = _; rw [h0]; omega
  have hk1 : ((((cfg0.win 5).blk t).view.emb (ix2 e j)) 1).val = j.val := by
    show win0_5.index t 1 * 128 + 1 * j.val = _; rw [h1]; omega
  exact weighted_eq 2#32 _ _ _ _ _ _ _ (iblk0_0_apply V c t e j _ hk0 hk1) (iblk0_2_apply V c t e 0 _ hk0)
    (iblk0_1_apply V c t e 0 _ hk0)

/-- An index of the array is in point `t`'s block iff each coordinate is in the block's range on its axis. -/
theorem mem_blk0_5 (t : Fin cfg0.N) (i : S800000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v9_2).slice (win0_5.rect t)).set ↔ _
  rw [View.set_slice_whole, Rect.mem_set_unit]
  exact Iff.rfl

/-- Every row is in the block of the point numbered by the row's quotient by 4000. -/
theorem cover0_5 (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : grid0.N = 200 := Gen.N_0
  have ht : (i 0).val / 4000 < cfg0.N := by show _ < grid0.N; rw [hN]; omega
  refine ⟨⟨(i 0).val / 4000, ht⟩, flush0_5 _, ?_⟩
  rw [mem_blk0_5]
  obtain ⟨-, -, -, -, -, h0, h1⟩ := idx0 ⟨(i 0).val / 4000, ht⟩
  intro a
  match a with
  | ⟨0, _⟩ =>
    show win0_5.index ⟨(i 0).val / 4000, ht⟩ 0 * 4000 ≤ (i 0).val
      ∧ (i 0).val < win0_5.index ⟨(i 0).val / 4000, ht⟩ 0 * 4000 + 4000
    rw [h0]; show (i 0).val / 4000 * 4000 ≤ (i 0).val ∧ (i 0).val < (i 0).val / 4000 * 4000 + 4000; omega
  | ⟨1, _⟩ =>
    show win0_5.index ⟨(i 0).val / 4000, ht⟩ 1 * 128 ≤ (i 1).val
      ∧ (i 1).val < win0_5.index ⟨(i 0).val / 4000, ht⟩ 1 * 128 + 128
    rw [h1]; omega

/-- The output array for direction 2 after the last point: the weighted rows over the whole edge list. -/
theorem final0_5 (c : Dev nD) :
    (dat0 (F := Ideal) V c).arrAt 5 cfg0.N = weightedAll 2#32 (V c main_v6) (V c main_v7) (V c main_v8) :=
  (dat0 (F := Ideal) V c).arrAt_eq_of_cover 5 (weightedAll 2#32 (V c main_v6) (V c main_v7) (V c main_v8))
    (fun t _ => flushed0_5_eq V c t) cover0_5

end Cert.KernelIdeal.Regs

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.KernelPayloadFused.lean ====
/-
  The second kernel's stored value read at one index, over variables for everything the kernel loads.

  Five 128-column contractions of a node's five pieces against the five 128-row blocks of the weight matrix, added
  from left to right, plus the bias; then the row's mean and mean squared deviation over its 128 columns, the
  deviation scaled by the reciprocal square root of the latter plus a small constant, scaled, shifted and clipped
  below at zero.
-/
import proofs.«122298_j3444563771449_1_alg».proof.Proof.Gen.KernelIdeal.Skeleton
import proofs.«122298_j3444563771449_1_alg».proof.Proof.Spec
import proofs.«122298_j3444563771449_1_alg».proof.Proof.LibKeepdims
import proofs.«122298_j3444563771449_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen

/-! ## The second kernel: the affine map -/

/-- One piece's product: a node's piece against the 128-row block of the weight matrix that starts at row `128·k`, into
    the zero accumulator, at (r, o), is the sum over the piece's 128 columns. (The dimension numbers are the plain
    product's; narrowing to sixteen bits is the identity on extended reals.) -/
theorem blockProduct_at (d : DotDims S2000x128 S128x128 S2000x128) (hd : d = DotDims.plain 2000 128 128)
    (w : FVec Ideal S640x128 .f32) (x : FVec Ideal S2000x128 .f32) (off : ℕ)
    (hs : S640x128.Slices ![off, 0] S128x128) (hlt : FTy.bits .bf16 < FTy.bits .f32) (k : Fin 5)
    (hoff : off = 128 * k.val) (r : Fin 2000) (o : Fin 128) :
    matmul d none (truncf .bf16 x hlt) (truncf .bf16 (extractStridedSlice S128x128 ![off, 0] w hs) hlt)
        (constant (F := Ideal) S2000x128 .f32 0x00000000#32) (ix2 r o)
      = ∑ j : Fin 128, x (ix2 r j) * w (ix2 (Cert.Layer.col k j) o) := by
  subst hd
  refine (Cert.LibPlainMatmul.matmul_plain_apply none (truncf .bf16 x hlt)
    (truncf .bf16 (extractStridedSlice S128x128 ![off, 0] w hs) hlt) r o).trans ?_
  refine Finset.sum_congr rfl fun j _ => ?_
  show x (ix2 r j) * extractStridedSlice S128x128 ![off, 0] w hs (ix2 j o) = _
  rw [slice2_axis0_apply off w hs j o (Cert.Layer.col k j) (by subst hoff; rfl)]

/-- The affine map's value at (r, o): the five pieces' products added from left to right, plus the bias. -/
theorem pay2_at (w : Vec Ideal S640x128 .f32) (x0 x1 x2 x3 x4 : Vec Ideal S2000x128 .f32) (bb : Vec Ideal S1x128 .f32)
    (r : Fin 2000) (o : Fin 128) :
    k1_pay2 (F := Ideal) w x0 x1 x2 x3 x4 bb (ix2 r o)
      = Cert.Layer.linBlocks ![fun j => x0 (ix2 r j), fun j => x1 (ix2 r j), fun j => x2 (ix2 r j),
          fun j => x3 (ix2 r j), fun j => x4 (ix2 r j)] (fun c => w (ix2 c o)) (bb (ix2 (0 : Fin 1) o)) := by
  unfold k1_pay2
  simp only [shapeCast_self, addf_apply]
  rw [blockProduct_at dot_S2000x128_S128x128_S2000x128_1_0_0_1_n_n rfl w x0 0 _ _ 0 rfl r o,
    blockProduct_at dot_S2000x128_S128x128_S2000x128_1_0_0_1_n_n rfl w x1 128 _ _ 1 rfl r o,
    blockProduct_at dot_S2000x128_S128x128_S2000x128_1_0_0_1_n_n rfl w x2 256 _ _ 2 rfl r o,
    blockProduct_at dot_S2000x128_S128x128_S2000x128_1_0_0_1_n_n rfl w x3 384 _ _ 3 rfl r o,
    blockProduct_at dot_S2000x128_S128x128_S2000x128_1_0_0_1_n_n rfl w x4 512 _ _ 4 rfl r o, broadcastTo_1b_ab_apply]
  rfl

/-! ## The second kernel: the normalisation -/

/-- A sum over the 128 lanes of a row, read at the row. -/
theorem laneSum_at (src : FVec Ideal S2000x128 .f32) (hR : S2000x128.Reduces [1] S2000) (r : Fin 2000) :
    multiReduction (F := Ideal) .add [1] S2000 src 0x00000000#32 hR (.inl rfl) rfl (ix1 r)
      = ∑ k : Fin 128, src (ix2 r k) := by
  refine (Ideal.multiReduction_add_single src 0x00000000#32 hR (.inl rfl) rfl (ix1 r)).trans ?_
  refine Finset.sum_congr rfl fun k _ => congrArg src ?_
  funext c
  match c with
  | ⟨0, _⟩ => exact Fin.ext rfl
  | ⟨1, _⟩ => exact Fin.ext rfl

/-- The reciprocal square root of a vector, at an index. -/
theorem rsqrt_apply {s : Shape} {φ : FTy} (a : FVec Ideal s φ) (i : s.Idx) : rsqrt a i = Ideal.rsqrt (a i) := rfl

/-- The column of row means: each row's lane sum kept as a column and divided by the word of 128. -/
theorem meanCol_at (z : FVec Ideal S2000x128 .f32) (hR : S2000x128.Reduces [1] S2000) (hC : S2000.ShapeCasts S2000x1)
    (r : Fin 2000) (u : Fin 1) :
    divf (shapeCast S2000x1 (multiReduction (F := Ideal) .add [1] S2000 z 0x00000000#32 hR (.inl rfl) rfl) hC)
        (broadcast S2000x1 (Scalar.ofBits (F := Ideal) .f32 0x43000000#32)) (ix2 r u)
      = Cert.Layer.rowMean fun j => z (ix2 r j) := by
  show Ideal.div (shapeCast S2000x1 (multiReduction (F := Ideal) .add [1] S2000 z 0x00000000#32 hR (.inl rfl) rfl) hC (ix2 r u))
    (Ideal.ofBits .f32 0x43000000#32) = _
  rw [Cert.LibKeepdims.shapeCast_a_a1_apply, laneSum_at]
  rfl

/-- The column of mean squared deviations, given a column `M` that holds each row's mean. -/
theorem varCol_at (z : FVec Ideal S2000x128 .f32) (M : FVec Ideal S2000x1 .f32) (hR : S2000x128.Reduces [1] S2000)
    (hC : S2000.ShapeCasts S2000x1) (hB : S2000x1.Broadcasts S2000x128)
    (hM : ∀ r : Fin 2000, M (ix2 r (0 : Fin 1)) = Cert.Layer.rowMean fun j => z (ix2 r j)) (r : Fin 2000) (u : Fin 1) :
    divf (shapeCast S2000x1 (multiReduction (F := Ideal) .add [1] S2000
          (mulf (subf z (broadcastTo S2000x128 M hB)) (subf z (broadcastTo S2000x128 M hB))) 0x00000000#32 hR (.inl rfl) rfl) hC)
        (broadcast S2000x1 (Scalar.ofBits (F := Ideal) .f32 0x43000000#32)) (ix2 r u)
      = Cert.Layer.rowVar fun j => z (ix2 r j) := by
  show Ideal.div (shapeCast S2000x1 (multiReduction (F := Ideal) .add [1] S2000
      (mulf (subf z (broadcastTo S2000x128 M hB)) (subf z (broadcastTo S2000x128 M hB))) 0x00000000#32 hR (.inl rfl) rfl) hC (ix2 r u))
    (Ideal.ofBits .f32 0x43000000#32) = _
  rw [Cert.LibKeepdims.shapeCast_a_a1_apply, laneSum_at]
  unfold Cert.Layer.rowVar
  refine congrArg (fun s => Ideal.div s Cert.Layer.c128) (Finset.sum_congr rfl fun k _ => ?_)
  show (z (ix2 r k) - broadcastTo S2000x128 M hB (ix2 r k)) * (z (ix2 r k) - broadcastTo S2000x128 M hB (ix2 r k)) = _
  rw [Cert.LibKeepdims.broadcastTo_a1_ab_apply, hM]

/-- The normalised, scaled, shifted and clipped row, at (r, o), of any matrix `z`. -/
theorem pay1_at (z : FVec Ideal S2000x128 .f32) (g be : Vec Ideal S1x128 .f32) (r : Fin 2000) (o : Fin 128) :
    k1_pay1 (F := Ideal) z g be (ix2 r o)
      = Cert.Layer.normRow (fun j => z (ix2 r j)) (fun o' => g (ix2 (0 : Fin 1) o')) (fun o' => be (ix2 (0 : Fin 1) o')) o := by
  unfold k1_pay1
  simp only [shapeCast_self, maximumf_apply, addf_apply, mulf_apply, subf_apply, rsqrt_apply, broadcast_apply,
    Cert.LibKeepdims.broadcastTo_a1_ab_apply, broadcastTo_1b_ab_apply]
  rw [varCol_at z _ _ _ _ (fun r' => meanCol_at z _ _ r' 0) r 0, meanCol_at z _ _ r 0]
  have h0 : FloatOps.ofBits (F := Ideal) .f32 0x00000000#32 = (0 : EReal) := Ideal.ofBits_zero_f32
  rw [h0]
  rfl

/-! ## The second kernel's stored value -/

/-- The second kernel's stored value at (r, o): the affine map of the node's five pieces, normalised along the 128
    output columns, scaled, shifted and clipped below at zero. -/
theorem fused_at (w : Vec Ideal S640x128 .f32) (x0 x1 x2 x3 x4 : Vec Ideal S2000x128 .f32) (bb g be : Vec Ideal S1x128 .f32)
    (r : Fin 2000) (o : Fin 128) :
    k1_pay1 (F := Ideal) (k1_pay2 w x0 x1 x2 x3 x4 bb) g be (ix2 r o)
      = Cert.Layer.normRow
          (fun o' => Cert.Layer.linBlocks ![fun j => x0 (ix2 r j), fun j => x1 (ix2 r j), fun j => x2 (ix2 r j),
            fun j => x3 (ix2 r j), fun j => x4 (ix2 r j)] (fun c => w (ix2 c o')) (bb (ix2 (0 : Fin 1) o')))
          (fun o' => g (ix2 (0 : Fin 1) o')) (fun o' => be (ix2 (0 : Fin 1) o')) o :=
  (pay1_at (k1_pay2 w x0 x1 x2 x3 x4 bb) g be r o).trans
    (congrArg (fun f => Cert.Layer.normRow f (fun o' => g (ix2 (0 : Fin 1) o')) (fun o' => be (ix2 (0 : Fin 1) o')) o)
      (funext fun o' => pay2_at w x0 x1 x2 x3 x4 bb r o'))

end Cert.KernelIdeal.PayloadAt

end
-- ==== Proof.KernelIdealFusedValue.lean ====
/-
  The second kernel region's output array after its last grid point, as one function of the arrays the region finds.

  The output's 25 blocks of 2000 rows tile the 50000 rows, and every grid point writes its block back. Point `t` is
  handed rows `2000·t … 2000·t + 1999` of each of the five pieces, the whole weight matrix and the bias, scale and shift
  rows; the row it leaves at place `e` of its block is the normalised affine image of row `2000·t + e` of the pieces. So
  the array ends holding, at row `n`, the normalised affine image of row `n` of the pieces.
-/
import proofs.«122298_j3444563771449_1_alg».proof.Proof.KernelIdealFusedRegion
import proofs.«122298_j3444563771449_1_alg».proof.Proof.KernelPayloadFused
import Idealize.ShloMosaic.Lib.Pipeline.Value

set_option maxRecDepth 16384

noncomputable section

namespace Cert.KernelIdeal.Regs

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The whole-array function -/

/-- The row of an index of a 50000 × 128 array. -/
def rowOf (i : S50000x128.Idx) : Fin 50000 := ⟨(i 0).val, (i 0).isLt⟩
/-- Its column. -/
def colOf (i : S50000x128.Idx) : Fin 128 := ⟨(i 1).val, (i 1).isLt⟩

/-- The layer's rows from the five pieces as arrays: five contractions added from left to right, the bias, the row
    normalisation, the scale, the shift and the clip. -/
def fusedAll (h d0 d1 d2 d3 : S50000x128.Idx → EReal) (wt : S640x128.Idx → EReal) (b g be : S1x128.Idx → EReal) :
    S50000x128.Idx → EReal :=
  fun i => Cert.Layer.normRow
    (fun o' => Cert.Layer.linBlocks ![fun j => h (ix2 (rowOf i) j), fun j => d0 (ix2 (rowOf i) j), fun j => d1 (ix2 (rowOf i) j),
      fun j => d2 (ix2 (rowOf i) j), fun j => d3 (ix2 (rowOf i) j)] (fun c => wt (ix2 c o')) (b (ix2 (0 : Fin 1) o')))
    (fun o' => g (ix2 (0 : Fin 1) o')) (fun o' => be (ix2 (0 : Fin 1) o')) (colOf i)

/-- At row `n` and column `o`. -/
theorem fusedAll_at (h d0 d1 d2 d3 : S50000x128.Idx → EReal) (wt : S640x128.Idx → EReal) (b g be : S1x128.Idx → EReal)
    (n : Fin 50000) (o : Fin 128) :
    fusedAll h d0 d1 d2 d3 wt b g be (ix2 n o) = Cert.Layer.normRow
      (fun o' => Cert.Layer.linBlocks ![fun j => h (ix2 n j), fun j => d0 (ix2 n j), fun j => d1 (ix2 n j),
        fun j => d2 (ix2 n j), fun j => d3 (ix2 n j)] (fun c => wt (ix2 c o')) (b (ix2 (0 : Fin 1) o')))
      (fun o' => g (ix2 (0 : Fin 1) o')) (fun o' => be (ix2 (0 : Fin 1) o')) o := rfl

/-- The normalised affine image depends on the pieces, the weights and the three rows entry by entry. -/
theorem normRow_linBlocks_congr {x x' : Fin 5 → Fin 128 → EReal} {w w' : Fin 128 → Fin 640 → EReal}
    {b b' g g' be be' : Fin 128 → EReal} (hx : ∀ k j, x k j = x' k j) (hw : ∀ o c, w o c = w' o c)
    (hb : ∀ o, b o = b' o) (hg : ∀ o, g o = g' o) (hbe : ∀ o, be o = be' o) (o : Fin 128) :
    Cert.Layer.normRow (fun o' => Cert.Layer.linBlocks x (w o') (b o')) g be o
      = Cert.Layer.normRow (fun o' => Cert.Layer.linBlocks x' (w' o') (b' o')) g' be' o := by
  obtain rfl : x = x' := funext fun k => funext fun j => hx k j
  obtain rfl : w = w' := funext fun o => funext fun c => hw o c
  obtain rfl : b = b' := funext hb
  obtain rfl : g = g' := funext hg
  obtain rfl : be = be' := funext hbe
  rfl

/-! ## Where the windows' blocks sit -/

theorem zeros2 : (![0, 0] : Fin 2 → Nat) = fun _ => 0 := funext fun a => by fin_cases a <;> rfl

/- The printed index maps over the 25 grid points: the five row windows and the output window are at block (t, 0);
   the weight matrix and the three rows at block (0, 0). -/
theorem blockIndex1_0 : ∀ t : Fin cfg1.N, win1_0.index t (0 : Fin 2) = t.val ∧ win1_0.index t (1 : Fin 2) = 0 :=
  (by decide +kernel : ∀ t : Fin grid1.N, _)
theorem blockIndex1_1 : ∀ t : Fin cfg1.N, win1_1.index t (0 : Fin 2) = t.val ∧ win1_1.index t (1 : Fin 2) = 0 :=
  (by decide +kernel : ∀ t : Fin grid1.N, _)
theorem blockIndex1_2 : ∀ t : Fin cfg1.N, win1_2.index t (0 : Fin 2) = t.val ∧ win1_2.index t (1 : Fin 2) = 0 :=
  (by decide +kernel : ∀ t : Fin grid1.N, _)
theorem blockIndex1_3 : ∀ t : Fin cfg1.N, win1_3.index t (0 : Fin 2) = t.val ∧ win1_3.index t (1 : Fin 2) = 0 :=
  (by decide +kernel : ∀ t : Fin grid1.N, _)
theorem blockIndex1_4 : ∀ t : Fin cfg1.N, win1_4.index t (0 : Fin 2) = t.val ∧ win1_4.index t (1 : Fin 2) = 0 :=
  (by decide +kernel : ∀ t : Fin grid1.N, _)
theorem blockIndex1_5 : ∀ t : Fin cfg1.N, win1_5.index t (0 : Fin 2) = 0 ∧ win1_5.index t (1 : Fin 2) = 0 :=
  (by decide +kernel : ∀ t : Fin grid1.N, _)
theorem blockIndex1_6 : ∀ t : Fin cfg1.N, win1_6.index t (0 : Fin 2) = 0 ∧ win1_6.index t (1 : Fin 2) = 0 :=
  (by decide +kernel : ∀ t : Fin grid1.N, _)
theorem blockIndex1_7 : ∀ t : Fin cfg1.N, win1_7.index t (0 : Fin 2) = 0 ∧ win1_7.index t (1 : Fin 2) = 0 :=
  (by decide +kernel : ∀ t : Fin grid1.N, _)
theorem blockIndex1_8 : ∀ t : Fin cfg1.N, win1_8.index t (0 : Fin 2) = 0 ∧ win1_8.index t (1 : Fin 2) = 0 :=
  (by decide +kernel : ∀ t : Fin grid1.N, _)
theorem blockIndex1_9 : ∀ t : Fin cfg1.N, win1_9.index t (0 : Fin 2) = t.val ∧ win1_9.index t (1 : Fin 2) = 0 :=
  (by decide +kernel : ∀ t : Fin grid1.N, _)

/-! ## The input blocks read at an index

A block's coordinate on an axis is the block index times the block's extent plus the coordinate inside the block. -/

theorem rows1_0_at (c : Dev nD) (t : Fin cfg1.N) (e : Fin 2000) (j : Fin 128) (n : Fin 50000)
    (hn : n.val = 2000 * t.val + e.val) :
    (iblk1 V c 0 t : Vec Ideal S2000x128 .f32) (ix2 e j) = (V c main_arg0 : S50000x128.Idx → EReal) (ix2 n j) := by
  unfold iblk1
  rw [View.read_apply]
  show (V c main_arg0 : S50000x128.Idx → EReal) _ = _
  refine congrArg _ (funext fun a => Fin.ext ?_)
  match a with
  | ⟨0, _⟩ => show win1_0.index t (0 : Fin 2) * 2000 + 1 * e.val = n.val; rw [(blockIndex1_0 t).1, hn]; omega
  | ⟨1, _⟩ => show win1_0.index t (1 : Fin 2) * 128 + 1 * j.val = j.val; rw [(blockIndex1_0 t).2]; omega

theorem rows1_1_at (c : Dev nD) (t : Fin cfg1.N) (e : Fin 2000) (j : Fin 128) (n : Fin 50000)
    (hn : n.val = 2000 * t.val + e.val) :
    (iblk1 V c 1 t : Vec Ideal S2000x128 .f32) (ix2 e j) = (V c main_v12 : S50000x128.Idx → EReal) (ix2 n j) := by
  unfold iblk1
  rw [View.read_apply]
  show (V c main_v12 : S50000x128.Idx → EReal) _ = _
  refine congrArg _ (funext fun a => Fin.ext ?_)
  match a with
  | ⟨0, _⟩ => show win1_1.index t (0 : Fin 2) * 2000 + 1 * e.val = n.val; rw [(blockIndex1_1 t).1, hn]; omega
  | ⟨1, _⟩ => show win1_1.index t (1 : Fin 2) * 128 + 1 * j.val = j.val; rw [(blockIndex1_1 t).2]; omega

theorem rows1_2_at (c : Dev nD) (t : Fin cfg1.N) (e : Fin 2000) (j : Fin 128) (n : Fin 50000)
    (hn : n.val = 2000 * t.val + e.val) :
    (iblk1 V c 2 t : Vec Ideal S2000x128 .f32) (ix2 e j) = (V c main_v15 : S50000x128.Idx → EReal) (ix2 n j) := by
  unfold iblk1
  rw [View.read_apply]
  show (V c main_v15 : S50000x128.Idx → EReal) _ = _
  refine congrArg _ (funext fun a => Fin.ext ?_)
  match a with
  | ⟨0, _⟩ => show win1_2.index t (0 : Fin 2) * 2000 + 1 * e.val = n.val; rw [(blockIndex1_2 t).1, hn]; omega
  | ⟨1, _⟩ => show win1_2.index t (1 : Fin 2) * 128 + 1 * j.val = j.val; rw [(blockIndex1_2 t).2]; omega

theorem rows1_3_at (c : Dev nD) (t : Fin cfg1.N) (e : Fin 2000) (j : Fin 128) (n : Fin 50000)
    (hn : n.val = 2000 * t.val + e.val) :
    (iblk1 V c 3 t : Vec Ideal S2000x128 .f32) (ix2 e j) = (V c main_v18 : S50000x128.Idx → EReal) (ix2 n j) := by
  unfold iblk1
  rw [View.read_apply]
  show (V c main_v18 : S50000x128.Idx → EReal) _ = _
  refine congrArg _ (funext fun a => Fin.ext ?_)
  match a with
  | ⟨0, _⟩ => show win1_3.index t (0 : Fin 2) * 2000 + 1 * e.val = n.val; rw [(blockIndex1_3 t).1, hn]; omega
  | ⟨1, _⟩ => show win1_3.index t (1 : Fin 2) * 128 + 1 * j.val = j.val; rw [(blockIndex1_3 t).2]; omega

theorem rows1_4_at (c : Dev nD) (t : Fin cfg1.N) (e : Fin 2000) (j : Fin 128) (n : Fin 50000)
    (hn : n.val = 2000 * t.val + e.val) :
    (iblk1 V c 4 t : Vec Ideal S2000x128 .f32) (ix2 e j) = (V c main_v12 : S50000x128.Idx → EReal) (ix2 n j) := by
  unfold iblk1
  rw [View.read_apply]
  show (V c main_v12 : S50000x128.Idx → EReal) _ = _
  refine congrArg _ (funext fun a => Fin.ext ?_)
  match a with
  | ⟨0, _⟩ => show win1_4.index t (0 : Fin 2) * 2000 + 1 * e.val = n.val; rw [(blockIndex1_4 t).1, hn]; omega
  | ⟨1, _⟩ => show win1_4.index t (1 : Fin 2) * 128 + 1 * j.val = j.val; rw [(blockIndex1_4 t).2]; omega

theorem weights1_at (c : Dev nD) (t : Fin cfg1.N) (k : Fin 640) (o : Fin 128) :
    (iblk1 V c 5 t : Vec Ideal S640x128 .f32) (ix2 k o) = (V c main_v19 : S640x128.Idx → EReal) (ix2 k o) := by
  unfold iblk1
  rw [View.read_apply]
  show (V c main_v19 : S640x128.Idx → EReal) _ = _
  refine congrArg _ (funext fun a => Fin.ext ?_)
  match a with
  | ⟨0, _⟩ => show win1_5.index t (0 : Fin 2) * 640 + 1 * k.val = k.val; rw [(blockIndex1_5 t).1]; omega
  | ⟨1, _⟩ => show win1_5.index t (1 : Fin 2) * 128 + 1 * o.val = o.val; rw [(blockIndex1_5 t).2]; omega

theorem row1_6_at (c : Dev nD) (t : Fin cfg1.N) (o : Fin 128) :
    (iblk1 V c 6 t : Vec Ideal S1x128 .f32) (ix2 (0 : Fin 1) o) = (V c main_v20 : S1x128.Idx → EReal) (ix2 (0 : Fin 1) o) := by
  unfold iblk1
  rw [View.read_apply]
  show (V c main_v20 : S1x128.Idx → EReal) _ = _
  refine congrArg _ (funext fun a => Fin.ext ?_)
  match a with
  | ⟨0, _⟩ => show win1_6.index t (0 : Fin 2) * 1 + 1 * 0 = 0; rw [(blockIndex1_6 t).1]
  | ⟨1, _⟩ => show win1_6.index t (1 : Fin 2) * 128 + 1 * o.val = o.val; rw [(blockIndex1_6 t).2]; omega

theorem row1_7_at (c : Dev nD) (t : Fin cfg1.N) (o : Fin 128) :
    (iblk1 V c 7 t : Vec Ideal S1x128 .f32) (ix2 (0 : Fin 1) o) = (V c main_v21 : S1x128.Idx → EReal) (ix2 (0 : Fin 1) o) := by
  unfold iblk1
  rw [View.read_apply]
  show (V c main_v21 : S1x128.Idx → EReal) _ = _
  refine congrArg _ (funext fun a => Fin.ext ?_)
  match a with
  | ⟨0, _⟩ => show win1_7.index t (0 : Fin 2) * 1 + 1 * 0 = 0; rw [(blockIndex1_7 t).1]
  | ⟨1, _⟩ => show win1_7.index t (1 : Fin 2) * 128 + 1 * o.val = o.val; rw [(blockIndex1_7 t).2]; omega

theorem row1_8_at (c : Dev nD) (t : Fin cfg1.N) (o : Fin 128) :
    (iblk1 V c 8 t : Vec Ideal S1x128 .f32) (ix2 (0 : Fin 1) o) = (V c main_v22 : S1x128.Idx → EReal) (ix2 (0 : Fin 1) o) := by
  unfold iblk1
  rw [View.read_apply]
  show (V c main_v22 : S1x128.Idx → EReal) _ = _
  refine congrArg _ (funext fun a => Fin.ext ?_)
  match a with
  | ⟨0, _⟩ => show win1_8.index t (0 : Fin 2) * 1 + 1 * 0 = 0; rw [(blockIndex1_8 t).1]
  | ⟨1, _⟩ => show win1_8.index t (1 : Fin 2) * 128 + 1 * o.val = o.val; rw [(blockIndex1_8 t).2]; omega

/-- The output block's place `(e, j)` at point `t` is row `2000·t + e`, column `j` of the output array. -/
theorem place1_9 (t : Fin cfg1.N) (e : Fin 2000) (j : Fin 128) (n : Fin 50000) (hn : n.val = 2000 * t.val + e.val) :
    ((cfg1.win 9).blk t).view.emb (ix2 e j) = (ix2 n j : S50000x128.Idx) := by
  refine funext fun a => Fin.ext ?_
  match a with
  | ⟨0, _⟩ => show win1_9.index t (0 : Fin 2) * 2000 + 1 * e.val = n.val; rw [(blockIndex1_9 t).1, hn]; omega
  | ⟨1, _⟩ => show win1_9.index t (1 : Fin 2) * 128 + 1 * j.val = j.val; rw [(blockIndex1_9 t).2]; omega

/-! ## What a point writes back, the cover, the array -/

/-- What point `t` writes back is block `t` of the whole-array function of the arrays as the region finds them. -/
theorem flushed1_9_eq (c : Dev nD) (t : Fin cfg1.N) :
    (dat1 (F := Ideal) V c).flushed 9 t = ((cfg1.win 9).blk t).view.read (Elt Ideal)
      (fusedAll (V c main_arg0) (V c main_v12) (V c main_v15) (V c main_v18) (V c main_v12) (V c main_v19) (V c main_v20)
        (V c main_v21) (V c main_v22)) := by
  show (cfg1.win 9).cut (grid1.coords t) ((dat1 (F := Ideal) V c).after 9 t) = _
  rw [after1_9]
  unfold out1_9
  rw [View.canon_unit_zero zeros2]
  simp only [View.ld_unit_zero (S := S2000x128) zeros2, View.ld_unit_zero (S := S640x128) zeros2,
    View.ld_unit_zero (S := S1x128) zeros2]
  funext y
  obtain ⟨e, j, rfl⟩ : ∃ (e : Fin 2000) (j : Fin 128), y = ix2 e j := ⟨y 0, y 1, eq_ix2 y⟩
  have hN : grid1.N = 25 := N_1
  have ht : t.val < 25 := hN ▸ t.isLt
  have he : e.val < 2000 := e.isLt
  rw [View.read_apply, place1_9 t e j ⟨2000 * t.val + e.val, by omega⟩ rfl, fusedAll_at]
  refine (Cert.KernelIdeal.PayloadAt.fused_at (iblk1 V c 5 t) (iblk1 V c 0 t) (iblk1 V c 1 t) (iblk1 V c 2 t) (iblk1 V c 3 t)
    (iblk1 V c 4 t) (iblk1 V c 6 t) (iblk1 V c 7 t) (iblk1 V c 8 t) e j).trans ?_
  refine normRow_linBlocks_congr (fun k j' => ?_) (fun o' k => weights1_at V c t k o') (fun o' => row1_6_at V c t o')
    (fun o' => row1_7_at V c t o') (fun o' => row1_8_at V c t o') j
  match k with
  | ⟨0, _⟩ => exact rows1_0_at V c t e j' _ rfl
  | ⟨1, _⟩ => exact rows1_1_at V c t e j' _ rfl
  | ⟨2, _⟩ => exact rows1_2_at V c t e j' _ rfl
  | ⟨3, _⟩ => exact rows1_3_at V c t e j' _ rfl
  | ⟨4, _⟩ => exact rows1_4_at V c t e j' _ rfl

/-- An index of the output array is in point `t`'s block iff each coordinate is in the block's range on its axis. -/
theorem mem_block1_9 (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v23).slice (win1_9.rect t)).set ↔ _
  rw [View.set_slice_whole, Rect.mem_set_unit]
  exact Iff.rfl

/-- Row `r` is in the block of point `r / 2000`, and every point writes back. -/
theorem cover1_9 (i : S50000x128.Idx) :
    ∃ t : Fin cfg1.N, (cfg1.win 9).flush t = true ∧ i ∈ ((cfg1.win 9).blk t).view.set := by
  have hN : grid1.N = 25 := N_1
  have hi0 : (i 0).val < 50000 := (i 0).isLt
  have hi1 : (i 1).val < 128 := (i 1).isLt
  have ht : (i 0).val / 2000 < grid1.N := by rw [hN]; omega
  refine ⟨⟨(i 0).val / 2000, ht⟩, flush1_9 _, ?_⟩
  rw [mem_block1_9]
  intro a
  match a with
  | ⟨0, _⟩ =>
    show win1_9.index ⟨(i 0).val / 2000, ht⟩ (0 : Fin 2) * 2000 ≤ (i 0).val
      ∧ (i 0).val < win1_9.index ⟨(i 0).val / 2000, ht⟩ (0 : Fin 2) * 2000 + 2000
    rw [(blockIndex1_9 ⟨(i 0).val / 2000, ht⟩).1]
    show (i 0).val / 2000 * 2000 ≤ (i 0).val ∧ (i 0).val < (i 0).val / 2000 * 2000 + 2000
    omega
  | ⟨1, _⟩ =>
    show win1_9.index ⟨(i 0).val / 2000, ht⟩ (1 : Fin 2) * 128 ≤ (i 1).val
      ∧ (i 1).val < win1_9.index ⟨(i 0).val / 2000, ht⟩ (1 : Fin 2) * 128 + 128
    rw [(blockIndex1_9 ⟨(i 0).val / 2000, ht⟩).2]
    omega

/-- The output array after the last grid point: the layer's rows of the arrays the region finds. -/
theorem final1_9 (c : Dev nD) :
    (dat1 (F := Ideal) V c).arrAt 9 cfg1.N = fusedAll (V c main_arg0) (V c main_v12) (V c main_v15) (V c main_v18)
      (V c main_v12) (V c main_v19) (V c main_v20) (V c main_v21) (V c main_v22) :=
  (dat1 (F := Ideal) V c).arrAt_eq_of_cover 9 _ (fun t _ => flushed1_9_eq V c t) cover1_9

end Cert.KernelIdeal.Regs

end
-- ==== Proof.ReferenceValue.lean ====
/-
  The reference program read as the specification's layer.

  The reference gathers the rows of the node features at the edges' sources, weights each gathered row by the edge's
  distance where the edge's position word is the direction asked for (zero elsewhere), adds the weighted rows into the
  rows named by the edges' destinations, lays the node's own row and the four aggregations side by side (the fourth is
  the first once more), applies one affine map over the 640 columns, normalises each row of 128 by its mean and mean
  squared deviation, scales, shifts and clips at zero. The gather and the scatter-additions are kept as they stand:
  nothing here looks inside them. Everything after them is read at an index and is the specification's `layer`.
-/
import proofs.«122298_j3444563771449_1_alg».proof.Proof.Gen.ReferenceIdeal.Read
import proofs.«122298_j3444563771449_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The three opaque stages -/

/-- The rows of the node features at the edges' sources: a negative source index has 50000 added first, the indices
    are laid out as a column, and the gather takes one row of 128 per edge. -/
def gathered (a0 : (⟨S50000x128, .f32⟩ : BufTy).Contents (Elt Ideal)) (a6 : (⟨S800000, .i32⟩ : BufTy).Contents (Elt Ideal)) : FVec Ideal S800000x128 .f32 :=
  Host.gather gather_S50000x128_S800000x1_S800000x128_1_0_n_n_0_1_1128 a0
    (broadcastInDim S800000x1 ![0] bcast_S800000_S800000x1_0
      (select (cmpi .slt a6 (broadcastInDim S800000 ![] bcast_S_S800000 (constantI S_ 32 0#32)))
        (addi a6 (broadcastInDim S800000 ![] bcast_S_S800000 (constantI S_ 32 50000#32))) a6))

/-- The gathered rows, each multiplied by its edge's weight for direction `p`: the distance where the position word
    is `p`, the zero word elsewhere, as a column broadcast along the 128 columns. -/
def weightedRows (p : BitVec 32) (a0 : (⟨S50000x128, .f32⟩ : BufTy).Contents (Elt Ideal)) (a1 : (⟨S800000, .f32⟩ : BufTy).Contents (Elt Ideal)) (a6 a8 : (⟨S800000, .i32⟩ : BufTy).Contents (Elt Ideal)) : FVec Ideal S800000x128 .f32 :=
  mulf (gathered a0 a6)
    (broadcastInDim S800000x128 ![0, 1] bcast_S800000x1_S800000x128_0_1
      (broadcastInDim S800000x1 ![0] bcast_S800000_S800000x1_0
        (select (cmpi .eq a8 (broadcastInDim S800000 ![] bcast_S_S800000 (constantI S_ 32 p))) a1
          (broadcastInDim S800000 ![] bcast_S_S800000 (id (constant (F := Ideal) S_ .f32 0x00000000#32))))))

/-- The weighted rows added into the rows their edges' destinations name, starting from zeros. -/
def aggregated (p : BitVec 32) (a0 : (⟨S50000x128, .f32⟩ : BufTy).Contents (Elt Ideal)) (a1 : (⟨S800000, .f32⟩ : BufTy).Contents (Elt Ideal)) (a6 a7 a8 : (⟨S800000, .i32⟩ : BufTy).Contents (Elt Ideal)) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 a7)
    (weightedRows p a0 a1 a6 a8)

/-- The gather is the reference's own sixth stage. -/
theorem gathered_eq (a0 : (⟨S50000x128, .f32⟩ : BufTy).Contents (Elt Ideal)) (a6 : (⟨S800000, .i32⟩ : BufTy).Contents (Elt Ideal)) : gathered a0 a6 = val_main_v6 (F := Ideal) a0 a6 := rfl

/-- The four weighted products of the reference are the three directions, the first met twice. -/
theorem v12_eq (a0 : (⟨S50000x128, .f32⟩ : BufTy).Contents (Elt Ideal)) (a1 : (⟨S800000, .f32⟩ : BufTy).Contents (Elt Ideal)) (a6 a8 : (⟨S800000, .i32⟩ : BufTy).Contents (Elt Ideal)) : val_main_v12 (F := Ideal) a0 a1 a6 a8 = weightedRows 0#32 a0 a1 a6 a8 := rfl
theorem v21_eq (a0 : (⟨S50000x128, .f32⟩ : BufTy).Contents (Elt Ideal)) (a1 : (⟨S800000, .f32⟩ : BufTy).Contents (Elt Ideal)) (a6 a8 : (⟨S800000, .i32⟩ : BufTy).Contents (Elt Ideal)) : val_main_v21 (F := Ideal) a0 a1 a6 a8 = weightedRows 1#32 a0 a1 a6 a8 := rfl
theorem v30_eq (a0 : (⟨S50000x128, .f32⟩ : BufTy).Contents (Elt Ideal)) (a1 : (⟨S800000, .f32⟩ : BufTy).Contents (Elt Ideal)) (a6 a8 : (⟨S800000, .i32⟩ : BufTy).Contents (Elt Ideal)) : val_main_v30 (F := Ideal) a0 a1 a6 a8 = weightedRows 2#32 a0 a1 a6 a8 := rfl
theorem v39_eq (a0 : (⟨S50000x128, .f32⟩ : BufTy).Contents (Elt Ideal)) (a1 : (⟨S800000, .f32⟩ : BufTy).Contents (Elt Ideal)) (a6 a8 : (⟨S800000, .i32⟩ : BufTy).Contents (Elt Ideal)) : val_main_v39 (F := Ideal) a0 a1 a6 a8 = weightedRows 0#32 a0 a1 a6 a8 := rfl

/-- The four scatter-additions of the reference are the three aggregations, the first met twice. -/
theorem v15_eq (a0 : (⟨S50000x128, .f32⟩ : BufTy).Contents (Elt Ideal)) (a1 : (⟨S800000, .f32⟩ : BufTy).Contents (Elt Ideal)) (a6 a7 a8 : (⟨S800000, .i32⟩ : BufTy).Contents (Elt Ideal)) : val_main_v15 (F := Ideal) a0 a1 a6 a7 a8 = aggregated 0#32 a0 a1 a6 a7 a8 := rfl
theorem v24_eq (a0 : (⟨S50000x128, .f32⟩ : BufTy).Contents (Elt Ideal)) (a1 : (⟨S800000, .f32⟩ : BufTy).Contents (Elt Ideal)) (a6 a7 a8 : (⟨S800000, .i32⟩ : BufTy).Contents (Elt Ideal)) : val_main_v24 (F := Ideal) a0 a1 a6 a7 a8 = aggregated 1#32 a0 a1 a6 a7 a8 := rfl
theorem v33_eq (a0 : (⟨S50000x128, .f32⟩ : BufTy).Contents (Elt Ideal)) (a1 : (⟨S800000, .f32⟩ : BufTy).Contents (Elt Ideal)) (a6 a7 a8 : (⟨S800000, .i32⟩ : BufTy).Contents (Elt Ideal)) : val_main_v33 (F := Ideal) a0 a1 a6 a7 a8 = aggregated 2#32 a0 a1 a6 a7 a8 := rfl
theorem v42_eq (a0 : (⟨S50000x128, .f32⟩ : BufTy).Contents (Elt Ideal)) (a1 : (⟨S800000, .f32⟩ : BufTy).Contents (Elt Ideal)) (a6 a7 a8 : (⟨S800000, .i32⟩ : BufTy).Contents (Elt Ideal)) : val_main_v42 (F := Ideal) a0 a1 a6 a7 a8 = aggregated 0#32 a0 a1 a6 a7 a8 := rfl

/-! ## An edge's weight -/

/-- A select on "the position word is `p`" between the distance and the zero word is the masked distance. -/
theorem select_eq_masked (p q : BitVec 32) (d : EReal) :
    Scalar.select (IntOp.cmpi .eq q p) d (Ideal.ofBits .f32 0x00000000#32) = Cert.Layer.masked p q d := by
  unfold Cert.Layer.masked
  rw [Ideal.ofBits_zero_f32]
  by_cases h : q = p
  · rw [if_pos h, IntOp.cmpi_eq.mpr h]; exact select_one _ _
  · rw [if_neg h, eq_zero_of_ne_one (fun hc => h (IntOp.cmpi_eq.mp hc))]; exact select_zero _ _

section Layout
variable {α : Type}

/-- A column laid along 128 columns reads the column's entry of the same row. -/
theorem bcol800000_at (y : S800000x1.Idx → α) (e : Fin 800000) (j : Fin 128) :
    broadcastInDim S800000x128 ![0, 1] bcast_S800000x1_S800000x128_0_1 y (ix2 e j) = y (ix2 e (0 : Fin 1)) :=
  broadcastInDim_apply _ bcast_S800000x1_S800000x128_0_1 y (ix2 e j) (ix2 e (0 : Fin 1)) (fun a => match a with
    | ⟨0, _⟩ => by show e.val = if (800000 : Nat) = 1 then 0 else e.val; rw [if_neg (by decide)]
    | ⟨1, _⟩ => by show 0 = if (1 : Nat) = 1 then 0 else j.val; rw [if_pos rfl])

/-- A vector laid out as a column reads the vector's entry of the same row. -/
theorem col800000_at (y : S800000.Idx → α) (e : Fin 800000) (j : Fin 1) :
    broadcastInDim S800000x1 ![0] bcast_S800000_S800000x1_0 y (ix2 e j) = y (ix1 e) :=
  broadcastInDim_apply _ bcast_S800000_S800000x1_0 y (ix2 e j) (ix1 e) (fun a => match a with
    | ⟨0, _⟩ => by show e.val = if (800000 : Nat) = 1 then 0 else e.val; rw [if_neg (by decide)])

end Layout

/-- A weighted row at an edge and a column: the gathered entry times the edge's masked distance. -/
theorem weightedRows_at (p : BitVec 32) (a0 : (⟨S50000x128, .f32⟩ : BufTy).Contents (Elt Ideal)) (a1 : (⟨S800000, .f32⟩ : BufTy).Contents (Elt Ideal)) (a6 a8 : (⟨S800000, .i32⟩ : BufTy).Contents (Elt Ideal)) (e : Fin 800000) (j : Fin 128) :
    weightedRows p a0 a1 a6 a8 (ix2 e j)
      = gathered a0 a6 (ix2 e j) * Cert.Layer.masked p (a8 (ix1 e)) (a1 (ix1 e)) := by
  unfold weightedRows
  rw [mulf_apply, bcol800000_at, col800000_at]
  exact congrArg (gathered a0 a6 (ix2 e j) * ·) (select_eq_masked p (a8 (ix1 e)) (a1 (ix1 e)))

/-! ## The concatenated row -/

/-- Five arrays of one shape side by side, read at a row and one of the 640 columns: array `c / 128` at column
    `c % 128` of the same row. -/
theorem cat_at (x0 d0 d1 d2 d3 : FVec Ideal S50000x128 .f32) (n : Fin 50000) (c : Fin 640) :
    concatenate S50000x640 1 [⟨S50000x128, x0⟩, ⟨S50000x128, d0⟩, ⟨S50000x128, d1⟩, ⟨S50000x128, d2⟩, ⟨S50000x128, d3⟩]
        concatenates_S50000x128_S50000x128_S50000x128_S50000x128_S50000x128_S50000x640_d1 (ix2 n c)
      = (![x0, d0, d1, d2, d3] : Fin 5 → S50000x128.Idx → EReal) ⟨c.val / 128, by omega⟩
          (ix2 n (⟨c.val % 128, Nat.mod_lt _ (by norm_num)⟩ : Fin 128)) :=
  concatenate_ofFn_apply (t := S50000x640) (s₁ := S50000x128) 1 (![x0, d0, d1, d2, d3] : Fin 5 → S50000x128.Idx → EReal)
    concatenates_S50000x128_S50000x128_S50000x128_S50000x128_S50000x128_S50000x640_d1 rfl 128 rfl (ix2 n c) ⟨c.val / 128, by omega⟩ rfl
    (ix2 n (⟨c.val % 128, Nat.mod_lt _ (by norm_num)⟩ : Fin 128)) rfl
    (fun b hb => match b, hb with
      | ⟨0, _⟩, _ => rfl
      | ⟨1, _⟩, hb => absurd (Fin.ext rfl) hb)

/-- Five arrays read at one row are five rows. -/
theorem rows_at (x0 d0 d1 d2 d3 : S50000x128.Idx → EReal) (n : Fin 50000) (k : Fin 5) (j : Fin 128) :
    (![x0, d0, d1, d2, d3] : Fin 5 → S50000x128.Idx → EReal) k (ix2 n j)
      = (![fun j => x0 (ix2 n j), fun j => d0 (ix2 n j), fun j => d1 (ix2 n j), fun j => d2 (ix2 n j),
            fun j => d3 (ix2 n j)] : Fin 5 → Fin 128 → EReal) k j := by
  match k with
  | ⟨0, _⟩ => rfl
  | ⟨1, _⟩ => rfl
  | ⟨2, _⟩ => rfl
  | ⟨3, _⟩ => rfl
  | ⟨4, _⟩ => rfl

/-- The five pieces of node `n`'s row. -/
def rowPieces (a0 : (⟨S50000x128, .f32⟩ : BufTy).Contents (Elt Ideal)) (a1 : (⟨S800000, .f32⟩ : BufTy).Contents (Elt Ideal)) (a6 a7 a8 : (⟨S800000, .i32⟩ : BufTy).Contents (Elt Ideal)) (n : Fin 50000) : Fin 5 → Fin 128 → EReal :=
  Cert.Layer.pieces (fun j => a0 (ix2 n j)) (fun j => aggregated 0#32 a0 a1 a6 a7 a8 (ix2 n j))
    (fun j => aggregated 1#32 a0 a1 a6 a7 a8 (ix2 n j)) (fun j => aggregated 2#32 a0 a1 a6 a7 a8 (ix2 n j))

/-- Node `n`'s row after the affine map. -/
def zRow (a0 : (⟨S50000x128, .f32⟩ : BufTy).Contents (Elt Ideal)) (a1 : (⟨S800000, .f32⟩ : BufTy).Contents (Elt Ideal)) (a2 : (⟨S128x640, .f32⟩ : BufTy).Contents (Elt Ideal)) (a3 : (⟨S128, .f32⟩ : BufTy).Contents (Elt Ideal)) (a6 a7 a8 : (⟨S800000, .i32⟩ : BufTy).Contents (Elt Ideal)) (n : Fin 50000) : Fin 128 → EReal :=
  fun o => Cert.Layer.linCat (rowPieces a0 a1 a6 a7 a8 n) (fun c => a2 (ix2 o c)) (a3 (ix1 o))

/-- The reference's concatenation at a row and a column is the specification's concatenated row. -/
theorem v43_at (a0 : (⟨S50000x128, .f32⟩ : BufTy).Contents (Elt Ideal)) (a1 : (⟨S800000, .f32⟩ : BufTy).Contents (Elt Ideal)) (a6 a7 a8 : (⟨S800000, .i32⟩ : BufTy).Contents (Elt Ideal)) (n : Fin 50000) (c : Fin 640) :
    val_main_v43 (F := Ideal) a0 a1 a6 a7 a8 (ix2 n c) = Cert.Layer.catRow (rowPieces a0 a1 a6 a7 a8 n) c := by
  unfold val_main_v43
  rw [v15_eq, v24_eq, v33_eq, v42_eq, cat_at, rows_at]
  rfl

/-! ## The affine map, the two means, the result -/

theorem lidx45_eq (n : Fin 50000) (o : Fin 128) (k : Fin 640) : lidx_main_v45 (ix2 n o) k = ix2 n k :=
  funext fun a => match a with | ⟨0, _⟩ => rfl | ⟨1, _⟩ => rfl
theorem widx45_eq (n : Fin 50000) (o : Fin 128) (k : Fin 640) : idx_main_v44 (ridx_main_v45 (ix2 n o) k) = ix2 o k :=
  funext fun a => match a with | ⟨0, _⟩ => rfl | ⟨1, _⟩ => rfl
theorem bidx_eq (n : Fin 50000) (o : Fin 128) : idx_main_v46 (idx_main_v47 (ix2 n o)) = ix1 o :=
  funext fun a => match a with | ⟨0, _⟩ => rfl

/-- The reference's affine map at a node and an output column. -/
theorem v48_at (a0 : (⟨S50000x128, .f32⟩ : BufTy).Contents (Elt Ideal)) (a1 : (⟨S800000, .f32⟩ : BufTy).Contents (Elt Ideal)) (a2 : (⟨S128x640, .f32⟩ : BufTy).Contents (Elt Ideal)) (a3 : (⟨S128, .f32⟩ : BufTy).Contents (Elt Ideal)) (a6 a7 a8 : (⟨S800000, .i32⟩ : BufTy).Contents (Elt Ideal)) (n : Fin 50000) (o : Fin 128) :
    val_main_v48 (F := Ideal) a0 a1 a2 a3 a6 a7 a8 (ix2 n o) = zRow a0 a1 a2 a3 a6 a7 a8 n o := by
  show _ = (∑ c : Fin 640, Cert.Layer.catRow (rowPieces a0 a1 a6 a7 a8 n) c * a2 (ix2 o c)) + a3 (ix1 o)
  rw [val_main_v48_apply, val_main_v45_apply, val_main_v47_apply, val_main_v46_apply, bidx_eq, Ideal.addf_def]
  refine congrArg (· + a3 (ix1 o)) (Finset.sum_congr rfl fun k _ => ?_)
  rw [lidx45_eq, v43_at, val_main_v44_apply, widx45_eq]

/-! ## The two row means -/

theorem idx49_eq (n : Fin 50000) (j : Fin 1) (k : Fin 128) : idx_main_v49 (idx_main_v50 (ix2 n j)) k = ix2 n k :=
  funext fun a => match a with | ⟨0, _⟩ => rfl | ⟨1, _⟩ => rfl
theorem idx56_eq (n : Fin 50000) (j : Fin 1) (k : Fin 128) : idx_main_v56 (idx_main_v57 (ix2 n j)) k = ix2 n k :=
  funext fun a => match a with | ⟨0, _⟩ => rfl | ⟨1, _⟩ => rfl
theorem idx53_eq (n : Fin 50000) (k : Fin 128) : idx_main_v53 (ix2 n k) = ix2 n (0 : Fin 1) :=
  funext fun a => match a with | ⟨0, _⟩ => rfl | ⟨1, _⟩ => rfl
theorem idx60_eq (n : Fin 50000) (k : Fin 128) : idx_main_v60 (ix2 n k) = ix2 n (0 : Fin 1) :=
  funext fun a => match a with | ⟨0, _⟩ => rfl | ⟨1, _⟩ => rfl
theorem idx65_eq (n : Fin 50000) (k : Fin 128) : idx_main_v65 (ix2 n k) = ix2 n (0 : Fin 1) :=
  funext fun a => match a with | ⟨0, _⟩ => rfl | ⟨1, _⟩ => rfl
theorem gidx_eq (n : Fin 50000) (o : Fin 128) : idx_main_v67 (idx_main_v68 (ix2 n o)) = ix1 o :=
  funext fun a => match a with | ⟨0, _⟩ => rfl
theorem sidx_eq (n : Fin 50000) (o : Fin 128) : idx_main_v70 (idx_main_v71 (ix2 n o)) = ix1 o :=
  funext fun a => match a with | ⟨0, _⟩ => rfl

/-- The reference's row mean: the host sum from the zero word, divided by the word of 128. -/
theorem v52_at (a0 : (⟨S50000x128, .f32⟩ : BufTy).Contents (Elt Ideal)) (a1 : (⟨S800000, .f32⟩ : BufTy).Contents (Elt Ideal)) (a2 : (⟨S128x640, .f32⟩ : BufTy).Contents (Elt Ideal)) (a3 : (⟨S128, .f32⟩ : BufTy).Contents (Elt Ideal)) (a6 a7 a8 : (⟨S800000, .i32⟩ : BufTy).Contents (Elt Ideal)) (n : Fin 50000) (j : Fin 1) :
    val_main_v52 (F := Ideal) a0 a1 a2 a3 a6 a7 a8 (ix2 n j) = Cert.Layer.rowMean (zRow a0 a1 a2 a3 a6 a7 a8 n) := by
  rw [val_main_v52_apply, val_main_v50_apply, val_main_v49_apply, val_main_v51_apply, val_main_cst_12_apply,
    val_main_cst_13_apply]
  simp only [Ideal.hostDivf_def, Ideal.ofBits_def, Ideal.ofBits_zero_f32, zero_add]
  unfold Cert.Layer.rowMean Cert.Layer.c128
  refine congrArg (Ideal.div · _) (Finset.sum_congr rfl fun k _ => ?_)
  rw [idx49_eq, v48_at]

/-- The reference's deviation from the row mean. -/
theorem v54_at (a0 : (⟨S50000x128, .f32⟩ : BufTy).Contents (Elt Ideal)) (a1 : (⟨S800000, .f32⟩ : BufTy).Contents (Elt Ideal)) (a2 : (⟨S128x640, .f32⟩ : BufTy).Contents (Elt Ideal)) (a3 : (⟨S128, .f32⟩ : BufTy).Contents (Elt Ideal)) (a6 a7 a8 : (⟨S800000, .i32⟩ : BufTy).Contents (Elt Ideal)) (n : Fin 50000) (k : Fin 128) :
    val_main_v54 (F := Ideal) a0 a1 a2 a3 a6 a7 a8 (ix2 n k)
      = zRow a0 a1 a2 a3 a6 a7 a8 n k - Cert.Layer.rowMean (zRow a0 a1 a2 a3 a6 a7 a8 n) := by
  rw [val_main_v54_apply, val_main_v53_apply, idx53_eq, v52_at, v48_at, Ideal.subf_def]

/-- The reference's mean squared deviation. -/
theorem v59_at (a0 : (⟨S50000x128, .f32⟩ : BufTy).Contents (Elt Ideal)) (a1 : (⟨S800000, .f32⟩ : BufTy).Contents (Elt Ideal)) (a2 : (⟨S128x640, .f32⟩ : BufTy).Contents (Elt Ideal)) (a3 : (⟨S128, .f32⟩ : BufTy).Contents (Elt Ideal)) (a6 a7 a8 : (⟨S800000, .i32⟩ : BufTy).Contents (Elt Ideal)) (n : Fin 50000) (j : Fin 1) :
    val_main_v59 (F := Ideal) a0 a1 a2 a3 a6 a7 a8 (ix2 n j) = Cert.Layer.rowVar (zRow a0 a1 a2 a3 a6 a7 a8 n) := by
  rw [val_main_v59_apply, val_main_v57_apply, val_main_v56_apply, val_main_v58_apply, val_main_cst_14_apply,
    val_main_cst_15_apply]
  simp only [Ideal.hostDivf_def, Ideal.ofBits_def, Ideal.ofBits_zero_f32, zero_add]
  unfold Cert.Layer.rowVar Cert.Layer.c128
  refine congrArg (Ideal.div · _) (Finset.sum_congr rfl fun k _ => ?_)
  rw [idx56_eq, val_main_v55_apply, v54_at, Ideal.mulf_def]

/-! ## The result -/

/-- The reference's result is the specification's layer of the node features, the three aggregations, the weight
    matrix, the bias, the scale and the shift. -/
theorem ref_result (a0 : (⟨S50000x128, .f32⟩ : BufTy).Contents (Elt Ideal)) (a1 : (⟨S800000, .f32⟩ : BufTy).Contents (Elt Ideal)) (a2 : (⟨S128x640, .f32⟩ : BufTy).Contents (Elt Ideal)) (a3 a4 a5 : (⟨S128, .f32⟩ : BufTy).Contents (Elt Ideal)) (a6 a7 a8 : (⟨S800000, .i32⟩ : BufTy).Contents (Elt Ideal)) :
    val_main_v73 (F := Ideal) a0 a1 a2 a3 a4 a5 a6 a7 a8
      = fun i => Cert.Layer.layer (fun n j => a0 (ix2 n j)) (fun n j => aggregated 0#32 a0 a1 a6 a7 a8 (ix2 n j))
          (fun n j => aggregated 1#32 a0 a1 a6 a7 a8 (ix2 n j)) (fun n j => aggregated 2#32 a0 a1 a6 a7 a8 (ix2 n j))
          (fun o c => a2 (ix2 o c)) (fun o => a3 (ix1 o)) (fun o => a4 (ix1 o)) (fun o => a5 (ix1 o)) (i 0) (i 1) := by
  funext i
  obtain ⟨n, o, rfl⟩ : ∃ (n : Fin 50000) (o : Fin 128), i = ix2 n o := ⟨i 0, i 1, eq_ix2 i⟩
  show _ = Cert.Layer.normRow (zRow a0 a1 a2 a3 a6 a7 a8 n) (fun o => a4 (ix1 o)) (fun o => a5 (ix1 o)) o
  rw [val_main_v73_apply, val_main_v72_apply, val_main_v69_apply, val_main_v66_apply, val_main_v61_apply,
    val_main_v60_apply, val_main_v65_apply, val_main_v64_apply, val_main_v63_apply, val_main_v62_apply,
    val_main_cst_16_apply, val_main_v68_apply, val_main_v67_apply, val_main_v71_apply, val_main_v70_apply,
    val_main_call4_v0_apply, val_main_call4_cst_apply, idx60_eq, idx65_eq, gidx_eq, sidx_eq, v52_at, v59_at, v48_at]
  simp only [Ideal.maximumf_def, Ideal.addf_def, Ideal.mulf_def, Ideal.subf_def, Ideal.hostUnary_rsqrt_def,
    Ideal.ofBits_def, Ideal.ofBits_zero_f32]
  rfl

end Cert.ReferenceIdeal.RefValue

end
-- ==== Proof.SpecAlgebra.lean ====
/-
  The two arrangements of the affine map agree: the sum over the 640 concatenated columns is the sum over the
  five pieces of the sums over each piece's 128 columns, column `128·k + j` of the concatenated row being column
  `j` of piece `k`.
-/
import proofs.«122298_j3444563771449_1_alg».proof.Proof.Spec
import Mathlib.Algebra.BigOperators.Fin
import Mathlib.Logic.Equiv.Fin.Basic

noncomputable section

open scoped BigOperators

namespace Cert.Layer

/-- The concatenated row at column `128·k + j` is piece `k` at column `j`. -/
theorem catRow_col (x : Fin 5 → Fin 128 → EReal) (k : Fin 5) (j : Fin 128) : catRow x (col k j) = x k j := by
  have hk : (128 * k.val + j.val) / 128 = k.val := by omega
  have hj : (128 * k.val + j.val) % 128 = j.val := by omega
  simp only [catRow, col, hk, hj, Fin.eta]

/-- A sum over the 640 columns, regrouped by piece. -/
theorem sum_cols (f : Fin 640 → EReal) : ∑ c : Fin 640, f c = ∑ k : Fin 5, ∑ j : Fin 128, f (col k j) := by
  calc ∑ c : Fin 640, f c
      = ∑ p : Fin 5 × Fin 128, f ((finProdFinEquiv : Fin 5 × Fin 128 ≃ Fin (5 * 128)) p) :=
        (Equiv.sum_comp (finProdFinEquiv : Fin 5 × Fin 128 ≃ Fin (5 * 128)) f).symm
    _ = ∑ k : Fin 5, ∑ j : Fin 128, f ((finProdFinEquiv : Fin 5 × Fin 128 ≃ Fin (5 * 128)) (k, j)) :=
        Fintype.sum_prod_type _
    _ = ∑ k : Fin 5, ∑ j : Fin 128, f (col k j) := by
        refine Finset.sum_congr rfl fun k _ => Finset.sum_congr rfl fun j _ => ?_
        congr 1
        apply Fin.ext
        simp [col, finProdFinEquiv]
        omega

theorem linBlocks_eq_linCat (x : Fin 5 → Fin 128 → EReal) (w : Fin 640 → EReal) (b : EReal) :
    linBlocks x w b = linCat x w b := by
  unfold linBlocks linCat
  rw [sum_cols, Fin.sum_univ_five]
  simp only [catRow_col]

end Cert.Layer

end
-- ==== Proof.KernelIdealValue.lean ====
/-
  The idealized kernel program's result as the layer of the specification.

  Between and around the two kernel regions the host computes: the gather of the source rows, the distances and
  position words as columns, the three scatter-adds of the first region's outputs into zeros at the destination rows,
  the transposed weight matrix, and the bias, scale and shift as rows. Each is read here at the boundary where a
  region finds it. The first region's three outputs are, row by row, the gathered row times the edge's masked
  distance — the very rows the reference multiplies out on the host — so the three aggregations are the reference's
  own scatter-adds of equal operands, and are never opened. The second region's output is the normalised row of five
  128-column contractions added left to right; regrouped into one contraction over the 640 concatenated columns it is
  the specification's layer.
-/
import proofs.«122298_j3444563771449_1_alg».proof.Proof.KernelIdealRun
import proofs.«122298_j3444563771449_1_alg».proof.Proof.KernelIdealWeightValue
import proofs.«122298_j3444563771449_1_alg».proof.Proof.KernelIdealFusedValue
import proofs.«122298_j3444563771449_1_alg».proof.Proof.ReferenceValue
import proofs.«122298_j3444563771449_1_alg».proof.Proof.SpecAlgebra
import proofs.«122298_j3444563771449_1_alg».proof.Proof.LibKeepdims
import Idealize.ShloMosaic.Lib.ValueLayout
import Idealize.ShloMosaic.Lib.StableHlo.Run

set_option maxRecDepth 16384

noncomputable section

namespace Cert.KernelIdeal.Regs

open Cert.KernelIdeal Cert.KernelIdeal.Gen
open Idealize.ShloMosaic Idealize.ShloMosaic.TcCoe Idealize.ShloMosaic.ValueIdx
open Idealize.SL.Sem
open Idealize.ShloMosaic.Pipeline (Dat)
open Cert.ReferenceIdeal.RefValue (gathered weightedRows aggregated weightedRows_at)

variable (m : (ℓ : Loc nD τ sig) → Buf (Elt Ideal) ℓ) (ρ : Dev nD → PrngReg)

/-! ## The first boundary: what the first region finds -/

/-- No host operation before the first region, and neither region's write-backs, touch an argument array. -/
theorem W2_arg (c : Dev nD) (b : Ref sig .tc) (h2 : ∀ w, Pipeline.arrRef spec0 w ≠ b)
    (h1 : b ∉ ([main_c, main_v0, main_v1, main_c_0, main_v2, main_v3, main_v4, main_v5, main_v6, main_v7, main_v8] : List (Ref sig .tc))) :
    W2 m ρ c (Proc.devRef .tc b) = m ((c : Thread nD τ).loc b) :=
  (W2_of_ne m ρ c b h2).trans ((hostOps0_keeps c _ b h1).trans rfl)

/-- The gathered source rows. -/
theorem U1_v6 (c : Dev nD) : (U1 m ρ c main_v6 : S800000x128.Idx → EReal) = gathered (m ((c : Thread nD τ).loc main_arg0)) (m ((c : Thread nD τ).loc main_arg6)) := by
  show StableHlo.after hostOps0 (W0 m ρ c) (Proc.devRef .tc main_v6) = _
  after_results
  try rfl

/-- The distances as a column: row `e` holds edge `e`'s distance. -/
theorem U1_v7_at (c : Dev nD) (e : Fin 800000) :
    (U1 m ρ c main_v7 : S800000x1.Idx → EReal) (ix2 e (0 : Fin 1)) = ((m ((c : Thread nD τ).loc main_arg1)) : S800000.Idx → EReal) (ix1 e) := by
  have h : (U1 m ρ c main_v7 : S800000x1.Idx → EReal) = shapeCast S800000x1 (m ((c : Thread nD τ).loc main_arg1)) shapeCasts_S800000_S800000x1 := by
    show StableHlo.after hostOps0 (W0 m ρ c) (Proc.devRef .tc main_v7) = _
    after_results
    try rfl
  rw [h]
  exact Cert.LibKeepdims.shapeCast_a_a1_apply _ _ e 0

/-- The position words as a column. -/
theorem U1_v8_at (c : Dev nD) (e : Fin 800000) :
    (U1 m ρ c main_v8 : S800000x1.Idx → BitVec 32) (ix2 e (0 : Fin 1)) = ((m ((c : Thread nD τ).loc main_arg8)) : S800000.Idx → BitVec 32) (ix1 e) := by
  have h : (U1 m ρ c main_v8 : S800000x1.Idx → BitVec 32) = shapeCast S800000x1 (m ((c : Thread nD τ).loc main_arg8)) shapeCasts_S800000_S800000x1 := by
    show StableHlo.after hostOps0 (W0 m ρ c) (Proc.devRef .tc main_v8) = _
    after_results
    try rfl
  rw [h]
  exact Cert.LibKeepdims.shapeCast_a_a1_apply _ _ e 0

/-! ## The second boundary: the first region's outputs are the reference's weighted rows -/

theorem weightedAll_eq_reference (p : BitVec 32) (c : Dev nD) :
    weightedAll p (U1 m ρ c main_v6) (U1 m ρ c main_v7) (U1 m ρ c main_v8) = weightedRows p (m ((c : Thread nD τ).loc main_arg0)) (m ((c : Thread nD τ).loc main_arg1)) (m ((c : Thread nD τ).loc main_arg6)) (m ((c : Thread nD τ).loc main_arg8)) := by
  funext i
  obtain ⟨e, j, rfl⟩ : ∃ (e : Fin 800000) (j : Fin 128), i = ix2 e j := ⟨i 0, i 1, eq_ix2 i⟩
  rw [weightedRows_at]
  unfold weightedAll
  rw [U1_v6, U1_v7_at, U1_v8_at]

theorem U2_v9_0 (c : Dev nD) : (U2 m ρ c main_v9_0 : S800000x128.Idx → EReal) = weightedRows 0#32 (m ((c : Thread nD τ).loc main_arg0)) (m ((c : Thread nD τ).loc main_arg1)) (m ((c : Thread nD τ).loc main_arg6)) (m ((c : Thread nD τ).loc main_arg8)) :=
  ((W2_arr m ρ c 3).trans (final0_3 (U1 m ρ) c)).trans (weightedAll_eq_reference m ρ 0#32 c)
theorem U2_v9_1 (c : Dev nD) : (U2 m ρ c main_v9_1 : S800000x128.Idx → EReal) = weightedRows 1#32 (m ((c : Thread nD τ).loc main_arg0)) (m ((c : Thread nD τ).loc main_arg1)) (m ((c : Thread nD τ).loc main_arg6)) (m ((c : Thread nD τ).loc main_arg8)) :=
  ((W2_arr m ρ c 4).trans (final0_4 (U1 m ρ) c)).trans (weightedAll_eq_reference m ρ 1#32 c)
theorem U2_v9_2 (c : Dev nD) : (U2 m ρ c main_v9_2 : S800000x128.Idx → EReal) = weightedRows 2#32 (m ((c : Thread nD τ).loc main_arg0)) (m ((c : Thread nD τ).loc main_arg1)) (m ((c : Thread nD τ).loc main_arg6)) (m ((c : Thread nD τ).loc main_arg8)) :=
  ((W2_arr m ρ c 5).trans (final0_5 (U1 m ρ) c)).trans (weightedAll_eq_reference m ρ 2#32 c)

/-! ## The third boundary: what the second region finds -/

theorem U3_arg0 (c : Dev nD) : (U3 m ρ c main_arg0 : S50000x128.Idx → EReal) = (m ((c : Thread nD τ).loc main_arg0)) :=
  (hostOps1_keeps c _ main_arg0 (by decide)).trans (W2_arg m ρ c main_arg0 (by decide) (by decide))

/-- The three aggregations are the reference's scatter-adds. -/
theorem U3_v12 (c : Dev nD) : (U3 m ρ c main_v12 : S50000x128.Idx → EReal) = aggregated 0#32 (m ((c : Thread nD τ).loc main_arg0)) (m ((c : Thread nD τ).loc main_arg1)) (m ((c : Thread nD τ).loc main_arg6)) (m ((c : Thread nD τ).loc main_arg7)) (m ((c : Thread nD τ).loc main_arg8)) := by
  have h : (U3 m ρ c main_v12 : S50000x128.Idx → EReal)
      = Host.scatterAdd scatter_S50000x128_S800000x1_S800000x128_1_0_0_1 (broadcastInDim S50000x128 ![] bcast_S_S50000x128 (constant (F := Ideal) S_ .f32 0x00000000#32))
          (broadcastInDim S800000x1 ![0] bcast_S800000_S800000x1_0 (W2 m ρ c (Proc.devRef .tc main_arg7))) (W2 m ρ c (Proc.devRef .tc main_v9_0)) := by
    show StableHlo.after hostOps1 (W2 m ρ c) (Proc.devRef .tc main_v12) = _
    after_results
    try rfl
  rw [h, W2_arg m ρ c main_arg7 (by decide) (by decide), show W2 m ρ c (Proc.devRef .tc main_v9_0) = weightedRows 0#32 (m ((c : Thread nD τ).loc main_arg0)) (m ((c : Thread nD τ).loc main_arg1)) (m ((c : Thread nD τ).loc main_arg6)) (m ((c : Thread nD τ).loc main_arg8)) from U2_v9_0 m ρ c]
  try rfl
theorem U3_v15 (c : Dev nD) : (U3 m ρ c main_v15 : S50000x128.Idx → EReal) = aggregated 1#32 (m ((c : Thread nD τ).loc main_arg0)) (m ((c : Thread nD τ).loc main_arg1)) (m ((c : Thread nD τ).loc main_arg6)) (m ((c : Thread nD τ).loc main_arg7)) (m ((c : Thread nD τ).loc main_arg8)) := by
  have h : (U3 m ρ c main_v15 : S50000x128.Idx → EReal)
      = Host.scatterAdd scatter_S50000x128_S800000x1_S800000x128_1_0_0_1 (broadcastInDim S50000x128 ![] bcast_S_S50000x128 (constant (F := Ideal) S_ .f32 0x00000000#32))
          (broadcastInDim S800000x1 ![0] bcast_S800000_S800000x1_0 (W2 m ρ c (Proc.devRef .tc main_arg7))) (W2 m ρ c (Proc.devRef .tc main_v9_1)) := by
    show StableHlo.after hostOps1 (W2 m ρ c) (Proc.devRef .tc main_v15) = _
    after_results
    try rfl
  rw [h, W2_arg m ρ c main_arg7 (by decide) (by decide), show W2 m ρ c (Proc.devRef .tc main_v9_1) = weightedRows 1#32 (m ((c : Thread nD τ).loc main_arg0)) (m ((c : Thread nD τ).loc main_arg1)) (m ((c : Thread nD τ).loc main_arg6)) (m ((c : Thread nD τ).loc main_arg8)) from U2_v9_1 m ρ c]
  try rfl
theorem U3_v18 (c : Dev nD) : (U3 m ρ c main_v18 : S50000x128.Idx → EReal) = aggregated 2#32 (m ((c : Thread nD τ).loc main_arg0)) (m ((c : Thread nD τ).loc main_arg1)) (m ((c : Thread nD τ).loc main_arg6)) (m ((c : Thread nD τ).loc main_arg7)) (m ((c : Thread nD τ).loc main_arg8)) := by
  have h : (U3 m ρ c main_v18 : S50000x128.Idx → EReal)
      = Host.scatterAdd scatter_S50000x128_S800000x1_S800000x128_1_0_0_1 (broadcastInDim S50000x128 ![] bcast_S_S50000x128 (constant (F := Ideal) S_ .f32 0x00000000#32))
          (broadcastInDim S800000x1 ![0] bcast_S800000_S800000x1_0 (W2 m ρ c (Proc.devRef .tc main_arg7))) (W2 m ρ c (Proc.devRef .tc main_v9_2)) := by
    show StableHlo.after hostOps1 (W2 m ρ c) (Proc.devRef .tc main_v18) = _
    after_results
    try rfl
  rw [h, W2_arg m ρ c main_arg7 (by decide) (by decide), show W2 m ρ c (Proc.devRef .tc main_v9_2) = weightedRows 2#32 (m ((c : Thread nD τ).loc main_arg0)) (m ((c : Thread nD τ).loc main_arg1)) (m ((c : Thread nD τ).loc main_arg6)) (m ((c : Thread nD τ).loc main_arg8)) from U2_v9_2 m ρ c]
  try rfl

/-- The transposed weight matrix, and the bias, the scale and the shift as rows. -/
theorem U3_v19 (c : Dev nD) : (U3 m ρ c main_v19 : S640x128.Idx → EReal) = transpose S640x128 [1, 0] (m ((c : Thread nD τ).loc main_arg2)) transposes_S128x640_S640x128_1_0 := by
  have h : (U3 m ρ c main_v19 : S640x128.Idx → EReal) = transpose S640x128 [1, 0] (W2 m ρ c (Proc.devRef .tc main_arg2)) transposes_S128x640_S640x128_1_0 := by
    show StableHlo.after hostOps1 (W2 m ρ c) (Proc.devRef .tc main_v19) = _
    after_results
    try rfl
  rw [h, W2_arg m ρ c main_arg2 (by decide) (by decide)]
theorem U3_v20 (c : Dev nD) : (U3 m ρ c main_v20 : S1x128.Idx → EReal) = shapeCast S1x128 (m ((c : Thread nD τ).loc main_arg3)) shapeCasts_S128_S1x128 := by
  have h : (U3 m ρ c main_v20 : S1x128.Idx → EReal) = shapeCast S1x128 (W2 m ρ c (Proc.devRef .tc main_arg3)) shapeCasts_S128_S1x128 := by
    show StableHlo.after hostOps1 (W2 m ρ c) (Proc.devRef .tc main_v20) = _
    after_results
    try rfl
  rw [h, W2_arg m ρ c main_arg3 (by decide) (by decide)]
theorem U3_v21 (c : Dev nD) : (U3 m ρ c main_v21 : S1x128.Idx → EReal) = shapeCast S1x128 (m ((c : Thread nD τ).loc main_arg4)) shapeCasts_S128_S1x128 := by
  have h : (U3 m ρ c main_v21 : S1x128.Idx → EReal) = shapeCast S1x128 (W2 m ρ c (Proc.devRef .tc main_arg4)) shapeCasts_S128_S1x128 := by
    show StableHlo.after hostOps1 (W2 m ρ c) (Proc.devRef .tc main_v21) = _
    after_results
    try rfl
  rw [h, W2_arg m ρ c main_arg4 (by decide) (by decide)]
theorem U3_v22 (c : Dev nD) : (U3 m ρ c main_v22 : S1x128.Idx → EReal) = shapeCast S1x128 (m ((c : Thread nD τ).loc main_arg5)) shapeCasts_S128_S1x128 := by
  have h : (U3 m ρ c main_v22 : S1x128.Idx → EReal) = shapeCast S1x128 (W2 m ρ c (Proc.devRef .tc main_arg5)) shapeCasts_S128_S1x128 := by
    show StableHlo.after hostOps1 (W2 m ρ c) (Proc.devRef .tc main_v22) = _
    after_results
    try rfl
  rw [h, W2_arg m ρ c main_arg5 (by decide) (by decide)]

/-- Over ANY arrays: the normalised rows of five contractions added left to right, against the transposed weights and
    the bias, scale and shift as rows, are the specification's layer — the contractions regrouped into one over the
    concatenated row, the transpose and the unit-axis casts read back. -/
theorem fused_is_layer (a0 d0 d1 d2 : S50000x128.Idx → EReal) (a2 : S128x640.Idx → EReal) (a3 a4 a5 : S128.Idx → EReal) :
    fusedAll a0 d0 d1 d2 d0 (transpose S640x128 [1, 0] a2 transposes_S128x640_S640x128_1_0) (shapeCast S1x128 a3 shapeCasts_S128_S1x128)
        (shapeCast S1x128 a4 shapeCasts_S128_S1x128) (shapeCast S1x128 a5 shapeCasts_S128_S1x128)
      = fun i => Cert.Layer.layer (fun n j => a0 (ix2 n j)) (fun n j => d0 (ix2 n j)) (fun n j => d1 (ix2 n j)) (fun n j => d2 (ix2 n j))
          (fun o cc => a2 (ix2 o cc)) (fun o => a3 (ix1 o)) (fun o => a4 (ix1 o)) (fun o => a5 (ix1 o)) (i 0) (i 1) := by
  funext i
  obtain ⟨n, o, rfl⟩ : ∃ (n : Fin 50000) (o : Fin 128), i = ix2 n o := ⟨i 0, i 1, eq_ix2 i⟩
  rw [fusedAll_at]
  unfold Cert.Layer.layer Cert.Layer.pieces
  have hw : ∀ (cc : Fin 640) (o' : Fin 128), transpose S640x128 [1, 0] a2 transposes_S128x640_S640x128_1_0 (ix2 cc o') = a2 (ix2 o' cc) :=
    fun cc o' => transpose_ix2_apply _ _ cc o'
  have h3 : ∀ o' : Fin 128, shapeCast S1x128 a3 shapeCasts_S128_S1x128 (ix2 (0 : Fin 1) o') = a3 (ix1 o') := fun o' => shapeCast_a_1a_apply _ _ 0 o'
  have h4 : ∀ o' : Fin 128, shapeCast S1x128 a4 shapeCasts_S128_S1x128 (ix2 (0 : Fin 1) o') = a4 (ix1 o') := fun o' => shapeCast_a_1a_apply _ _ 0 o'
  have h5 : ∀ o' : Fin 128, shapeCast S1x128 a5 shapeCasts_S128_S1x128 (ix2 (0 : Fin 1) o') = a5 (ix1 o') := fun o' => shapeCast_a_1a_apply _ _ 0 o'
  simp only [hw, h3, h4, h5, Cert.Layer.linBlocks_eq_linCat]

/-! ## The result -/

/-- What the program leaves in its result array: the specification's layer of the arguments and the reference's three
    aggregations. -/
def result (c : Dev nD) : S50000x128.Idx → EReal := fun i =>
  Cert.Layer.layer (fun n j => ((m ((c : Thread nD τ).loc main_arg0)) : S50000x128.Idx → EReal) (ix2 n j))
    (fun n j => aggregated 0#32 (m ((c : Thread nD τ).loc main_arg0)) (m ((c : Thread nD τ).loc main_arg1)) (m ((c : Thread nD τ).loc main_arg6)) (m ((c : Thread nD τ).loc main_arg7)) (m ((c : Thread nD τ).loc main_arg8)) (ix2 n j))
    (fun n j => aggregated 1#32 (m ((c : Thread nD τ).loc main_arg0)) (m ((c : Thread nD τ).loc main_arg1)) (m ((c : Thread nD τ).loc main_arg6)) (m ((c : Thread nD τ).loc main_arg7)) (m ((c : Thread nD τ).loc main_arg8)) (ix2 n j))
    (fun n j => aggregated 2#32 (m ((c : Thread nD τ).loc main_arg0)) (m ((c : Thread nD τ).loc main_arg1)) (m ((c : Thread nD τ).loc main_arg6)) (m ((c : Thread nD τ).loc main_arg7)) (m ((c : Thread nD τ).loc main_arg8)) (ix2 n j))
    (fun o cc => ((m ((c : Thread nD τ).loc main_arg2)) : S128x640.Idx → EReal) (ix2 o cc)) (fun o => ((m ((c : Thread nD τ).loc main_arg3)) : S128.Idx → EReal) (ix1 o))
    (fun o => ((m ((c : Thread nD τ).loc main_arg4)) : S128.Idx → EReal) (ix1 o)) (fun o => ((m ((c : Thread nD τ).loc main_arg5)) : S128.Idx → EReal) (ix1 o)) (i 0) (i 1)

/-- The second region's output array is that layer. -/
theorem final_result (c : Dev nD) : (dat1 (F := Ideal) (U3 m ρ) c).arrAt 9 cfg1.N = result m c := by
  rw [final1_9, U3_arg0, U3_v12, U3_v15, U3_v18, U3_v19, U3_v20, U3_v21, U3_v22]
  exact fused_is_layer _ _ _ _ _ _ _ _

/-- Every weakly fair execution terminates, faults nowhere, and ends with the result array at the layer and every
    argument as launched. -/
theorem run_result : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c _ (mem_uc main_v23 (by decide))).trans (W4_result m ρ c)).trans (final_result m ρ c),
      (h c _ (mem_uc main_arg0 (by decide))).trans (W4_arg m ρ c main_arg0 (by decide) (by decide) (by decide) (by decide)),
      (h c _ (mem_uc main_arg1 (by decide))).trans (W4_arg m ρ c main_arg1 (by decide) (by decide) (by decide) (by decide)),
      (h c _ (mem_uc main_arg2 (by decide))).trans (W4_arg m ρ c main_arg2 (by decide) (by decide) (by decide) (by decide)),
      (h c _ (mem_uc main_arg3 (by decide))).trans (W4_arg m ρ c main_arg3 (by decide) (by decide) (by decide) (by decide)),
      (h c _ (mem_uc main_arg4 (by decide))).trans (W4_arg m ρ c main_arg4 (by decide) (by decide) (by decide) (by decide)),
      (h c _ (mem_uc main_arg5 (by decide))).trans (W4_arg m ρ c main_arg5 (by decide) (by decide) (by decide) (by decide)),
      (h c _ (mem_uc main_arg6 (by decide))).trans (W4_arg m ρ c main_arg6 (by decide) (by decide) (by decide) (by decide)),
      (h c _ (mem_uc main_arg7 (by decide))).trans (W4_arg m ρ c main_arg7 (by decide) (by decide) (by decide) (by decide)),
      (h c _ (mem_uc main_arg8 (by decide))).trans (W4_arg m ρ c main_arg8 (by decide) (by decide) (by decide) (by decide))⟩)
    (run_all m ρ)

end Cert.KernelIdeal.Regs

end
-- ==== Proof.lean ====
/-
  A graph layer on a TPU against its jnp reference, equal on the extended reals.

  Both programs gather each edge's source row, weight it by the edge's distance masked to one of three directions,
  scatter-add the weighted rows to the destination nodes, concatenate a node's own features with the four
  aggregations (the first direction twice), apply one affine map with 640 input columns, normalise each row of 128
  outputs, scale, shift and clip at zero. The kernel program does the weighting and the affine-map-to-clip part in
  two kernel regions, the second of which contracts the five 128-column pieces one by one and adds the results
  left to right; the reference contracts the 640 concatenated columns at once. On the extended reals a finite sum
  may be regrouped freely, so the two are one function of the arguments; no hypothesis on the inputs is used.

  The three frames come from the programs' runs: every weakly fair execution terminates, faults nowhere and leaves the
  argument arrays as launched. The kernel program's idealization rewrote nothing, so the preservation claim is
  trivial. The equivalence claim pairs the idealized kernel program's run, its result array named as the
  specification's layer, with the reference's run, whose result term is the same layer.
-/
import proofs.«122298_j3444563771449_1_alg».proof.Defs
import proofs.«122298_j3444563771449_1_alg».proof.Proof.Gen.Kernel
import proofs.«122298_j3444563771449_1_alg».proof.Proof.Gen.KernelIdeal
import proofs.«122298_j3444563771449_1_alg».proof.Proof.Gen.ReferenceIdeal
import proofs.«122298_j3444563771449_1_alg».proof.Proof.Gen.Pre_finite_inputs
import proofs.«122298_j3444563771449_1_alg».proof.Proof.KernelRun
import proofs.«122298_j3444563771449_1_alg».proof.Proof.KernelIdealValue
import proofs.«122298_j3444563771449_1_alg».proof.Proof.ReferenceValue
import Idealize.ShloMosaic.Adequacy
import Idealize.ShloMosaic.Init

noncomputable section

namespace Cert.Proof

open Idealize.ShloMosaic Idealize.SL.Sem

/-- The kernel program as printed runs to the end with its arguments unchanged. -/
theorem frame_kernel : Cert.frame_Kernel (hKernel := Cert.Kernel.Gen.facts) (hPre_finite_inputs := Cert.Pre_finite_inputs.Gen.facts) := fun m ρ _ =>
  (θ_run Cert.Kernel.defs _ _).mono (fun r h c =>
    ⟨
      (h c _ (Cert.Kernel.Regs.mem_uc Cert.Kernel.main_arg0 (by decide))).trans (Cert.Kernel.Regs.W4_arg m ρ c Cert.Kernel.main_arg0 (by decide) (by decide) (by decide) (by decide)),
      (h c _ (Cert.Kernel.Regs.mem_uc Cert.Kernel.main_arg1 (by decide))).trans (Cert.Kernel.Regs.W4_arg m ρ c Cert.Kernel.main_arg1 (by decide) (by decide) (by decide) (by decide)),
      (h c _ (Cert.Kernel.Regs.mem_uc Cert.Kernel.main_arg2 (by decide))).trans (Cert.Kernel.Regs.W4_arg m ρ c Cert.Kernel.main_arg2 (by decide) (by decide) (by decide) (by decide)),
      (h c _ (Cert.Kernel.Regs.mem_uc Cert.Kernel.main_arg3 (by decide))).trans (Cert.Kernel.Regs.W4_arg m ρ c Cert.Kernel.main_arg3 (by decide) (by decide) (by decide) (by decide)),
      (h c _ (Cert.Kernel.Regs.mem_uc Cert.Kernel.main_arg4 (by decide))).trans (Cert.Kernel.Regs.W4_arg m ρ c Cert.Kernel.main_arg4 (by decide) (by decide) (by decide) (by decide)),
      (h c _ (Cert.Kernel.Regs.mem_uc Cert.Kernel.main_arg5 (by decide))).trans (Cert.Kernel.Regs.W4_arg m ρ c Cert.Kernel.main_arg5 (by decide) (by decide) (by decide) (by decide)),
      (h c _ (Cert.Kernel.Regs.mem_uc Cert.Kernel.main_arg6 (by decide))).trans (Cert.Kernel.Regs.W4_arg m ρ c Cert.Kernel.main_arg6 (by decide) (by decide) (by decide) (by decide)),
      (h c _ (Cert.Kernel.Regs.mem_uc Cert.Kernel.main_arg7 (by decide))).trans (Cert.Kernel.Regs.W4_arg m ρ c Cert.Kernel.main_arg7 (by decide) (by decide) (by decide) (by decide)),
      (h c _ (Cert.Kernel.Regs.mem_uc Cert.Kernel.main_arg8 (by decide))).trans (Cert.Kernel.Regs.W4_arg m ρ c Cert.Kernel.main_arg8 (by decide) (by decide) (by decide) (by decide))⟩)
    (Cert.Kernel.Regs.run_all (F := Bits) m ρ)

/-- So does its idealization. -/
theorem frame_kernelIdeal : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Regs.run_result m ρ)

/-- And the reference: its run with the result dropped. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories agreeing on the arguments both idealized programs end with the result array at the layer of the
    arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Regs.result m c, Cert.KernelIdeal.Regs.run_result m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v73_eq, Cert.ReferenceIdeal.RefValue.ref_result]
  obtain ⟨e0, e1, e2, e3, e4, e5, e6, e7, e8⟩ := hagree c
  rw [e0, e1, e2, e3, e4, e5, e6, e7, e8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
